-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S1000000 : Shape := ⟨1, ![1000000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1000000 : S_.BroadcastsInDim S1000000 (![] : Fin 0 → Fin S1000000.rank)
  reducesTo_S1000000_S_d0 : S1000000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x64 .f32) (main_arg1 : IVec S2x1000000 32) (main_arg2 : FVec F S1000000 .f32) (main_arg3 : FVec F S64x64 .f32) (main_arg4 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1000000 .f32 := Host.absf main_arg2
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x64 : Shape := ⟨2, ![100000, 64]⟩
abbrev S2x1000000 : Shape := ⟨2, ![2, 1000000]⟩
abbrev S1000000 : Shape := ⟨1, ![1000000]⟩
abbrev S64x64 : Shape := ⟨2, ![64, 64]⟩
abbrev S64 : Shape := ⟨1, ![64]⟩
abbrev S1x1000000 : Shape := ⟨2, ![1, 1000000]⟩
abbrev S100000 : Shape := ⟨1, ![100000]⟩
abbrev S1100000 : Shape := ⟨1, ![1100000]⟩
abbrev S_ : Shape := ⟨0, ![]⟩
abbrev S1100000x1 : Shape := ⟨2, ![1100000, 1]⟩
abbrev S1100000x64 : Shape := ⟨2, ![1100000, 64]⟩
abbrev S16384x64 : Shape := ⟨2, ![16384, 64]⟩
abbrev S16384 : Shape := ⟨1, ![16384]⟩
abbrev S16384x1 : Shape := ⟨2, ![16384, 1]⟩
abbrev S1x64 : Shape := ⟨2, ![1, 64]⟩
abbrev S10000x64 : Shape := ⟨2, ![10000, 64]⟩

abbrev nBuf : Space → Nat
  | .hbm => 77
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S1000000, .f32⟩
  | .hbm, ⟨3, _⟩ => ⟨S64x64, .f32⟩
  | .hbm, ⟨4, _⟩ => ⟨S64, .f32⟩
  | .hbm, ⟨5, _⟩ => ⟨S1x1000000, .i32⟩
  | .hbm, ⟨6, _⟩ => ⟨S1000000, .i32⟩
  | .hbm, ⟨7, _⟩ => ⟨S1x1000000, .i32⟩
  | .hbm, ⟨8, _⟩ => ⟨S1000000, .i32⟩
  | .hbm, ⟨9, _⟩ => ⟨S100000, .i32⟩
  | .hbm, ⟨10, _⟩ => ⟨S1100000, .i32⟩
  | .hbm, ⟨11, _⟩ => ⟨S1100000, .i32⟩
  | .hbm, ⟨12, _⟩ => ⟨S_, .f32⟩
  | .hbm, ⟨13, _⟩ => ⟨S100000, .f32⟩
  | .hbm, ⟨14, _⟩ => ⟨S1100000, .f32⟩
  | .hbm, ⟨15, _⟩ => ⟨S_, .f32⟩
  | .hbm, ⟨16, _⟩ => ⟨S100000, .f32⟩
  | .hbm, ⟨17, _⟩ => ⟨S1100000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1100000, .i32⟩
  | .hbm, ⟨29, _⟩ => ⟨S1100000, .i1⟩
  | .hbm, ⟨30, _⟩ => ⟨S_, .i32⟩
  | .hbm, ⟨31, _⟩ => ⟨S1100000, .i32⟩
  | .hbm, ⟨32, _⟩ => ⟨S1100000, .i32⟩
  | .hbm, ⟨33, _⟩ => ⟨S1100000, .i32⟩
  | .hbm, ⟨34, _⟩ => ⟨S1100000x1, .i32⟩
  | .hbm, ⟨35, _⟩ => ⟨S1100000, .f32⟩
  | .hbm, ⟨36, _⟩ => ⟨S1100000, .f32⟩
  | .hbm, ⟨37, _⟩ => ⟨S_, .i32⟩
  | .hbm, ⟨38, _⟩ => ⟨S1100000, .i32⟩
  | .hbm, ⟨39, _⟩ => ⟨S1100000, .i1⟩
  | .hbm, ⟨40, _⟩ => ⟨S_, .i32⟩
  | .hbm, ⟨41, _⟩ => ⟨S1100000, .i32⟩
  | .hbm, ⟨42, _⟩ => ⟨S1100000, .i32⟩
  | .hbm, ⟨43, _⟩ => ⟨S1100000, .i32⟩
  | .hbm, ⟨44, _⟩ => ⟨S1100000x1, .i32⟩
  | .hbm, ⟨45, _⟩ => ⟨S1100000, .f32⟩
  | .hbm, ⟨46, _⟩ => ⟨S1100000, .f32⟩
  | .hbm, ⟨47, _⟩ => ⟨S_, .i32⟩
  | .hbm, ⟨48, _⟩ => ⟨S1100000, .i32⟩
  | .hbm, ⟨49, _⟩ => ⟨S1100000, .i1⟩
  | .hbm, ⟨50, _⟩ => ⟨S_, .i32⟩
  | .hbm, ⟨51, _⟩ => ⟨S1100000, .i32⟩
  | .hbm, ⟨52, _⟩ => ⟨S1100000, .i32⟩
  | .hbm, ⟨53, _⟩ => ⟨S1100000, .i32⟩
  | .hbm, ⟨54, _⟩ => ⟨S1100000x1, .i32⟩
  | .hbm, ⟨55, _⟩ => ⟨S1100000x64, .f32⟩
  | .hbm, ⟨56, _⟩ => ⟨S1100000x64, .f32⟩
  | .hbm, ⟨57, _⟩ => ⟨S_, .f32⟩
  | .hbm, ⟨58, _⟩ => ⟨S100000x64, .f32⟩
  | .hbm, ⟨59, _⟩ => ⟨S1100000x1, .i32⟩
  | .hbm, ⟨60, _⟩ => ⟨S100000x64, .f32⟩
  | .hbm, ⟨61, _⟩ => ⟨S_, .i32⟩
  | .hbm, ⟨62, _⟩ => ⟨S1100000, .i32⟩
  | .hbm, ⟨63, _⟩ => ⟨S1100000, .i1⟩
  | .hbm, ⟨64, _⟩ => ⟨S_, .i32⟩
  | .hbm, ⟨65, _⟩ => ⟨S1100000, .i32⟩
  | .hbm, ⟨66, _⟩ => ⟨S1100000, .i32⟩
  | .hbm, ⟨67, _⟩ => ⟨S1100000, .i32⟩
  | .hbm, ⟨68, _⟩ => ⟨S1100000x1, .i32⟩
  | .hbm, ⟨69, _⟩ => ⟨S1100000x64, .f32⟩
  | .hbm, ⟨70, _⟩ => ⟨S1100000x64, .f32⟩
  | .hbm, ⟨71, _⟩ => ⟨S_, .f32⟩
  | .hbm, ⟨72, _⟩ => ⟨S100000x64, .f32⟩
  | .hbm, ⟨73, _⟩ => ⟨S1100000x1, .i32⟩
  | .hbm, ⟨74, _⟩ => ⟨S100000x64, .f32⟩
  | .hbm, ⟨75, _⟩ => ⟨S1x64, .f32⟩
  | .hbm, ⟨76, _⟩ => ⟨S100000x64, .f32⟩
  | .local _ .vmem, ⟨0, _⟩ => ⟨S16384x64, .f32⟩
  | .local _ .vmem, ⟨1, _⟩ => ⟨S16384x64, .f32⟩
  | .local _ .vmem, ⟨2, _⟩ => ⟨S16384, .f32⟩
  | .local _ .vmem, ⟨3, _⟩ => ⟨S16384, .f32⟩
  | .local _ .vmem, ⟨4, _⟩ => ⟨S16384x64, .f32⟩
  | .local _ .vmem, ⟨5, _⟩ => ⟨S16384x64, .f32⟩
  | .local _ .vmem, ⟨6, _⟩ => ⟨S16384x64, .f32⟩
  | .local _ .vmem, ⟨7, _⟩ => ⟨S16384x64, .f32⟩
  | .local _ .vmem, ⟨8, _⟩ => ⟨S16384, .f32⟩
  | .local _ .vmem, ⟨9, _⟩ => ⟨S16384, .f32⟩
  | .local _ .vmem, ⟨10, _⟩ => ⟨S16384x64, .f32⟩
  | .local _ .vmem, ⟨11, _⟩ => ⟨S16384x64, .f32⟩
  | .local _ .vmem, ⟨12, _⟩ => ⟨S10000x64, .f32⟩
  | .local _ .vmem, ⟨13, _⟩ => ⟨S10000x64, .f32⟩
  | .local _ .vmem, ⟨14, _⟩ => ⟨S64x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_v33 : Ref sig .tc := ⟨.hbm, 49, rfl⟩
abbrev main_c_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_9 : Ref sig .tc := ⟨.hbm, 61, rfl⟩
abbrev main_v43 : Ref sig .tc := ⟨.hbm, 62, rfl⟩
abbrev main_v44 : Ref sig .tc := ⟨.hbm, 63, rfl⟩
abbrev main_c_10 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_11 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16384x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![68], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  ![arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16384x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16384x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  concatenates_S1000000_S100000_S1100000_d0 : Shape.Concatenates [S1000000, S100000] S1100000 0
  bcast_S_S100000 : S_.BroadcastsInDim S100000 (![] : Fin 0 → Fin S100000.rank)
  bcast_S1100000_S1100000x1_0 : S1100000.BroadcastsInDim S1100000x1 (![0] : Fin 1 → Fin S1100000x1.rank)
  bcast_S_S1100000 : S_.BroadcastsInDim S1100000 (![] : Fin 0 → Fin S1100000.rank)
  inb_S16384_S16384_0 : ∀ a, (![0] : Fin 1 → Nat) a + S16384.size a ≤ S16384.size a
  h_S16384 : 0 < S16384.numel
  shapeCasts_S16384_S16384 : S16384.ShapeCasts S16384
  shapeCasts_S16384_S16384x1 : S16384.ShapeCasts S16384x1
  shapeCasts_S16384x1_S16384x1 : S16384x1.ShapeCasts S16384x1
  broadcasts_S16384x1_S16384x64 : S16384x1.Broadcasts S16384x64
  inb_S16384x64_S16384x64_0_0 : ∀ a, (![0, 0] : Fin 2 → Nat) a + S16384x64.size a ≤ S16384x64.size a
  h_S16384x64 : 0 < S16384x64.numel
  shapeCasts_S16384x64_S16384x64 : S16384x64.ShapeCasts S16384x64
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S16384x64.size a < S1100000x64.size a
  hwx0_0 : ∀ i : grid0.Coords, EltTy.bits .f32 = 32 ∨ (Rect.unit (s := S1100000x64) (fun a => cc0_transform_0 i a * S16384x64.size a) (fun a => (Pipeline.Clip.of (cc0_transform_0 i a) (S16384x64.size a) (S1100000x64.size a)).extent (S16384x64.size a)) fun a => Pipeline.Clip.inb (Pipeline.Clip.ok_of (hstart0_0 i a))).WholeWords (EltTy.packing .f32)
  hwxs0_0 : ∀ i : grid0.Coords, EltTy.bits .f32 = 32 ∨ (Rect.unit (s := S16384x64) (fun _ => 0) (fun a => (Pipeline.Clip.of (cc0_transform_0 i a) (S16384x64.size a) (S1100000x64.size a)).extent (S16384x64.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S16384.size a < S1100000.size a
  hwx0_1 : ∀ i : grid0.Coords, EltTy.bits .f32 = 32 ∨ (Rect.unit (s := S1100000) (fun a => cc0_transform_1 i a * S16384.size a) (fun a => (Pipeline.Clip.of (cc0_transform_1 i a) (S16384.size a) (S1100000.size a)).extent (S16384.size a)) fun a => Pipeline.Clip.inb (Pipeline.Clip.ok_of (hstart0_1 i a))).WholeWords (EltTy.packing .f32)
  hwxs0_1 : ∀ i : grid0.Coords, EltTy.bits .f32 = 32 ∨ (Rect.unit (s := S16384) (fun _ => 0) (fun a => (Pipeline.Clip.of (cc0_transform_1 i a) (S16384.size a) (S1100000.size a)).extent (S16384.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S16384x64.size a < S1100000x64.size a
  hwx0_2 : ∀ i : grid0.Coords, EltTy.bits .f32 = 32 ∨ (Rect.unit (s := S1100000x64) (fun a => cc0_transform_2 i a * S16384x64.size a) (fun a => (Pipeline.Clip.of (cc0_transform_2 i a) (S16384x64.size a) (S1100000x64.size a)).extent (S16384x64.size a)) fun a => Pipeline.Clip.inb (Pipeline.Clip.ok_of (hstart0_2 i a))).WholeWords (EltTy.packing .f32)
  hwxs0_2 : ∀ i : grid0.Coords, EltTy.bits .f32 = 32 ∨ (Rect.unit (s := S16384x64) (fun _ => 0) (fun a => (Pipeline.Clip.of (cc0_transform_2 i a) (S16384x64.size a) (S1100000x64.size a)).extent (S16384x64.size a)) fun a => (Nat.zero_add _).trans_le (Pipeline.Clip.extent_le (Pipeline.Clip.ok_of (hstart0_2 i a)))).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S16384x64.size a < S1100000x64.size a
  hwx1_0 : ∀ i : grid1.Coords, EltTy.bits .f32 = 32 ∨ (Rect.unit (s := S1100000x64) (fun a => cc1_transform_0 i a * S16384x64.size a) (fun a => (Pipeline.Clip.of (cc1_transform_0 i a) (S16384x64.size a) (S1100000x64.size a)).extent (S16384x64.size a)) fun a => Pipeline.Clip.inb (Pipeline.Clip.ok_of (hstart1_0 i a))).WholeWords (EltTy.packing .f32)
  hwxs1_0 : ∀ i : grid1.Coords, EltTy.bits .f32 = 32 ∨ (Rect.unit (s := S16384x64) (fun _ => 0) (fun a => (Pipeline.Clip.of (cc1_transform_0 i a) (S16384x64.size a) (S1100000x64.size a)).extent (S16384x64.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S16384.size a < S1100000.size a
  hwx1_1 : ∀ i : grid1.Coords, EltTy.bits .f32 = 32 ∨ (Rect.unit (s := S1100000) (fun a => cc1_transform_1 i a * S16384.size a) (fun a => (Pipeline.Clip.of (cc1_transform_1 i a) (S16384.size a) (S1100000.size a)).extent (S16384.size a)) fun a => Pipeline.Clip.inb (Pipeline.Clip.ok_of (hstart1_1 i a))).WholeWords (EltTy.packing .f32)
  hwxs1_1 : ∀ i : grid1.Coords, EltTy.bits .f32 = 32 ∨ (Rect.unit (s := S16384) (fun _ => 0) (fun a => (Pipeline.Clip.of (cc1_transform_1 i a) (S16384.size a) (S1100000.size a)).extent (S16384.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S16384x64.size a < S1100000x64.size a
  hwx1_2 : ∀ i : grid1.Coords, EltTy.bits .f32 = 32 ∨ (Rect.unit (s := S1100000x64) (fun a => cc1_transform_2 i a * S16384x64.size a) (fun a => (Pipeline.Clip.of (cc1_transform_2 i a) (S16384x64.size a) (S1100000x64.size a)).extent (S16384x64.size a)) fun a => Pipeline.Clip.inb (Pipeline.Clip.ok_of (hstart1_2 i a))).WholeWords (EltTy.packing .f32)
  hwxs1_2 : ∀ i : grid1.Coords, EltTy.bits .f32 = 32 ∨ (Rect.unit (s := S16384x64) (fun _ => 0) (fun a => (Pipeline.Clip.of (cc1_transform_2 i a) (S16384x64.size a) (S1100000x64.size a)).extent (S16384x64.size a)) fun a => (Nat.zero_add _).trans_le (Pipeline.Clip.extent_le (Pipeline.Clip.ok_of (hstart1_2 i a)))).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpecClip (Memref.whole main_v38) S16384x64.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v31) S16384.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v39) S16384x64.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpecClip (Memref.whole main_v49) S16384x64.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpecClip (Memref.whole main_v31) S16384.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v50) S16384x64.size cc1_transform_2 reads1_2 true false 2 stage1_2 sem1_2
    hrank1 hreads1_2 hstart1_2 nbuf1_2 (Memref.isWhole_whole _) hwx1_2 hwxs1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v53) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S1000000 : Shape := ⟨1, ![1000000]⟩
abbrev S64x64 : Shape := ⟨2, ![64, 64]⟩
abbrev S64 : Shape := ⟨1, ![64]⟩
abbrev S1x1000000 : Shape := ⟨2, ![1, 1000000]⟩
abbrev S100000 : Shape := ⟨1, ![100000]⟩
abbrev S1100000 : Shape := ⟨1, ![1100000]⟩
abbrev S_ : Shape := ⟨0, ![]⟩
abbrev S1100000x1 : Shape := ⟨2, ![1100000, 1]⟩
abbrev S1100000x64 : Shape := ⟨2, ![1100000, 64]⟩
abbrev S1x64 : Shape := ⟨2, ![1, 64]⟩

abbrev nBuf : Space → Nat
  | .hbm => 83
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S1000000, .f32⟩
  | .hbm, ⟨3, _⟩ => ⟨S64x64, .f32⟩
  | .hbm, ⟨4, _⟩ => ⟨S64, .f32⟩
  | .hbm, ⟨5, _⟩ => ⟨S1x1000000, .i32⟩
  | .hbm, ⟨6, _⟩ => ⟨S1000000, .i32⟩
  | .hbm, ⟨7, _⟩ => ⟨S1x1000000, .i32⟩
  | .hbm, ⟨8, _⟩ => ⟨S1000000, .i32⟩
  | .hbm, ⟨9, _⟩ => ⟨S100000, .i32⟩
  | .hbm, ⟨10, _⟩ => ⟨S1100000, .i32⟩
  | .hbm, ⟨11, _⟩ => ⟨S1100000, .i32⟩
  | .hbm, ⟨12, _⟩ => ⟨S_, .f32⟩
  | .hbm, ⟨13, _⟩ => ⟨S100000, .f32⟩
  | .hbm, ⟨14, _⟩ => ⟨S1100000, .f32⟩
  | .hbm, ⟨15, _⟩ => ⟨S_, .f32⟩
  | .hbm, ⟨16, _⟩ => ⟨S100000, .f32⟩
  | .hbm, ⟨17, _⟩ => ⟨S1100000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1100000, .i32⟩
  | .hbm, ⟨29, _⟩ => ⟨S1100000, .i1⟩
  | .hbm, ⟨30, _⟩ => ⟨S_, .i32⟩
  | .hbm, ⟨31, _⟩ => ⟨S1100000, .i32⟩
  | .hbm, ⟨32, _⟩ => ⟨S1100000, .i32⟩
  | .hbm, ⟨33, _⟩ => ⟨S1100000, .i32⟩
  | .hbm, ⟨34, _⟩ => ⟨S1100000x1, .i32⟩
  | .hbm, ⟨35, _⟩ => ⟨S1100000, .f32⟩
  | .hbm, ⟨36, _⟩ => ⟨S1100000, .f32⟩
  | .hbm, ⟨37, _⟩ => ⟨S_, .i32⟩
  | .hbm, ⟨38, _⟩ => ⟨S1100000, .i32⟩
  | .hbm, ⟨39, _⟩ => ⟨S1100000, .i1⟩
  | .hbm, ⟨40, _⟩ => ⟨S_, .i32⟩
  | .hbm, ⟨41, _⟩ => ⟨S1100000, .i32⟩
  | .hbm, ⟨42, _⟩ => ⟨S1100000, .i32⟩
  | .hbm, ⟨43, _⟩ => ⟨S1100000, .i32⟩
  | .hbm, ⟨44, _⟩ => ⟨S1100000x1, .i32⟩
  | .hbm, ⟨45, _⟩ => ⟨S1100000, .f32⟩
  | .hbm, ⟨46, _⟩ => ⟨S1100000, .f32⟩
  | .hbm, ⟨47, _⟩ => ⟨S1100000x1, .f32⟩
  | .hbm, ⟨48, _⟩ => ⟨S_, .i32⟩
  | .hbm, ⟨49, _⟩ => ⟨S1100000, .i32⟩
  | .hbm, ⟨50, _⟩ => ⟨S1100000, .i1⟩
  | .hbm, ⟨51, _⟩ => ⟨S_, .i32⟩
  | .hbm, ⟨52, _⟩ => ⟨S1100000, .i32⟩
  | .hbm, ⟨53, _⟩ => ⟨S1100000, .i32⟩
  | .hbm, ⟨54, _⟩ => ⟨S1100000, .i32⟩
  | .hbm, ⟨55, _⟩ => ⟨S1100000x1, .i32⟩
  | .hbm, ⟨56, _⟩ => ⟨S1100000x64, .f32⟩
  | .hbm, ⟨57, _⟩ => ⟨S1100000x64, .f32⟩
  | .hbm, ⟨58, _⟩ => ⟨S1100000x64, .f32⟩
  | .hbm, ⟨59, _⟩ => ⟨S_, .f32⟩
  | .hbm, ⟨60, _⟩ => ⟨S100000x64, .f32⟩
  | .hbm, ⟨61, _⟩ => ⟨S1100000x1, .i32⟩
  | .hbm, ⟨62, _⟩ => ⟨S100000x64, .f32⟩
  | .hbm, ⟨63, _⟩ => ⟨S1100000x1, .f32⟩
  | .hbm, ⟨64, _⟩ => ⟨S_, .i32⟩
  | .hbm, ⟨65, _⟩ => ⟨S1100000, .i32⟩
  | .hbm, ⟨66, _⟩ => ⟨S1100000, .i1⟩
  | .hbm, ⟨67, _⟩ => ⟨S_, .i32⟩
  | .hbm, ⟨68, _⟩ => ⟨S1100000, .i32⟩
  | .hbm, ⟨69, _⟩ => ⟨S1100000, .i32⟩
  | .hbm, ⟨70, _⟩ => ⟨S1100000, .i32⟩
  | .hbm, ⟨71, _⟩ => ⟨S1100000x1, .i32⟩
  | .hbm, ⟨72, _⟩ => ⟨S1100000x64, .f32⟩
  | .hbm, ⟨73, _⟩ => ⟨S1100000x64, .f32⟩
  | .hbm, ⟨74, _⟩ => ⟨S1100000x64, .f32⟩
  | .hbm, ⟨75, _⟩ => ⟨S_, .f32⟩
  | .hbm, ⟨76, _⟩ => ⟨S100000x64, .f32⟩
  | .hbm, ⟨77, _⟩ => ⟨S1100000x1, .i32⟩
  | .hbm, ⟨78, _⟩ => ⟨S100000x64, .f32⟩
  | .hbm, ⟨79, _⟩ => ⟨S100000x64, .f32⟩
  | .hbm, ⟨80, _⟩ => ⟨S1x64, .f32⟩
  | .hbm, ⟨81, _⟩ => ⟨S100000x64, .f32⟩
  | .hbm, ⟨82, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_9 : Ref sig .tc := ⟨.hbm, 64, rfl⟩
abbrev main_v46 : Ref sig .tc := ⟨.hbm, 65, rfl⟩
abbrev main_v47 : Ref sig .tc := ⟨.hbm, 66, rfl⟩
abbrev main_c_10 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_11 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  concatenates_S1000000_S100000_S1100000_d0 : Shape.Concatenates [S1000000, S100000] S1100000 0
  bcast_S_S100000 : S_.BroadcastsInDim S100000 (![] : Fin 0 → Fin S100000.rank)
  bcast_S1100000_S1100000x1_0 : S1100000.BroadcastsInDim S1100000x1 (![0] : Fin 1 → Fin S1100000x1.rank)
  bcast_S_S1100000 : S_.BroadcastsInDim S1100000 (![] : Fin 0 → Fin S1100000.rank)
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S100000x64_S64x64_S100000x64_1_0_0_1_n_n_wf : DotDims.WF S100000x64 S64x64 S100000x64 [1] [0] [0] [1] [] []

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KBScaleBody0.lean ====
/-
  The edge-scaling kernel of hop 0 (pallas_call 0): one grid point multiplies a block of 16384 gathered feature rows by
  that block's 16384 edge weights, each weight spread along its row's 64 lanes. Here: the body's triple on whole staging
  buffers — it loads the weight block and the feature block, stores their row-scaled product over the whole output
  block and changes nothing else — with the stored block named as the canon of its one store.
-/
import proofs.«131668_j65876208386529_1_alg».proof.Proof.Gen.Kernel.Launch
import proofs.«131668_j65876208386529_1_alg».proof.Proof.Gen.Kernel.Skeleton
import proofs.«131668_j65876208386529_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses: each the whole staging block -/

abbrev rX0 : Rect S16384x64 := Rect.unit (s := S16384x64) ![0, 0] S16384x64.size inb_S16384x64_S16384x64_0_0
abbrev rW0 : Rect S16384 := Rect.unit (s := S16384) ![0] S16384.size inb_S16384_S16384_0

/-- What the body leaves in the output block: its one store, of the weights' block spread along the lanes times the
    features' block. -/
def scaled0 (w : Vec F S16384 .f32) (x : Vec F S16384x64 .f32) : Vec F S16384x64 .f32 :=
  View.canon [⟨rX0, k0_pay1 (View.ld w rW0) (View.ld x rX0)⟩]

/-- The one store covers the output block. -/
theorem cover_scaled0 (p0 : Vec F S16384x64 .f32) (y : S16384x64.Idx) :
    ∃ pc ∈ ([⟨rX0, p0⟩] : List (View.Piece (Elt F) S16384x64 .f32)), y ∈ pc.1.set :=
  View.cover_of_tiled [⟨rX0, p0⟩] S16384x64.size (by rfl) y

set_option maxHeartbeats 1000000 in
/-- The body on whole staging buffers: the features' at `x`, the weights' at `w`, the output's at anything; it ends with
    the first two as they were and the output's at `scaled0 w x`. -/
theorem sound_scale0 (c : Dev nD) (E : Set ℕ) (i : grid0.Coords)
    (arg1 : Memref sig .tc .vmem S16384x64 .f32) (harg1 : arg1.IsWhole)
    (arg2 : Memref sig .tc .vmem S16384 .f32) (harg2 : arg2.IsWhole)
    (arg3 : Memref sig .tc .vmem S16384x64 .f32) (harg3 : arg3.IsWhole)
    (x : Vec F S16384x64 .f32) (w : Vec F S16384 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w
            ∗ owns (c : Thread nD τ) arg3 fullShare (scaled0 w x)) -∗ K ⟨⟩))
      ⊢ wp frame (wpE (defs₀ (F := F)) Variants.none c none) E (cc0__scale_kernel i arg1 harg1 arg2 harg2 arg3 harg3) K := by
  simp only [cc0__scale_kernel_eq_skeleton]; unfold cc0__scale_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_scaled0 _)

end Cert.Kernel.Hand

end
-- ==== Proof.KBScale0.lean ====
/-
  The edge-scaling pallas_call of hop 0 as a pipeline: 68 grid points over 1,100,000 edges in blocks of 16384, the last
  block overhanging the arrays (it holds 2272 edges), so every window's transfer at that point moves only the block's
  leading rows and the rest of a staging buffer holds words nothing names. The stored value at row r, lane l is the
  feature at (r, l) times the weight of row r, so on the rows a transfer moves it depends on the inputs only on those rows:
  that is all a clipped window's obligation states. Here: the stored block at an index, the proof data, what the body
  finds in each staging buffer, and the body obligation at every point.
-/
import proofs.«131668_j65876208386529_1_alg».proof.Proof.KBScaleBody0
import Idealize.ShloMosaic.Lib.ValueIdx
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

/-! ## The stored block at an index -/

theorem hz2_0 : (![0, 0] : Fin 2 → Nat) = fun _ => 0 := funext fun a => by fin_cases a <;> rfl
theorem hz1_0 : (![0] : Fin 1 → Nat) = fun _ => 0 := funext fun a => by fin_cases a; rfl

/-- The one store covers the block, so what it leaves is its payload; the loads read the whole buffers. -/
theorem scaled0_eq (w : Vec F S16384 .f32) (x : Vec F S16384x64 .f32) : scaled0 w x = k0_pay1 w x := by
  unfold scaled0
  rw [View.canon_unit_zero hz2_0, View.ld_unit_zero (S := S16384) hz1_0, View.ld_unit_zero (S := S16384x64) hz2_0]

/-- Row r, lane l of the stored block: the feature there times row r's weight. -/
theorem pay0_apply (w : Vec F S16384 .f32) (x : Vec F S16384x64 .f32) (r : Fin 16384) (l : Fin 64) :
    k0_pay1 w x (ix2 r l) = FloatOps.mulf (x (ix2 r l)) (w (ix1 r)) := by
  unfold k0_pay1
  simp only [shapeCast_self]
  show FloatOps.mulf (x (ix2 r l)) (broadcastTo S16384x64 (shapeCast S16384x1 w shapeCasts_S16384_S16384x1) broadcasts_S16384x1_S16384x64 (ix2 r l)) = _
  rw [broadcastTo_apply _ _ (ix2 r l) (ix2 r (0 : Fin 1)) (fun a => by
      match a with
      | ⟨0, _⟩ => rfl
      | ⟨1, _⟩ => rfl),
    shapeCast_apply w _ (ix2 r (0 : Fin 1)) (ix1 r) (by
      rw [Shape.rowMajor_val_two, Shape.rowMajor_val_one]; show r.val = r.val * 1 + 0; omega)]

/-! ## The rows a transfer moves depend on the inputs only there -/

/-- The weights' and the output's windows cut their blocks at the same row. -/
theorem xsize_row0 (i : grid0.Coords) : win0_1.xsize i 0 = win0_2.xsize i 0 := rfl

/-- On the rows the transfer at `i` moves, the stored block depends only on those rows of the two input blocks. -/
theorem cut_scaled0 (i : grid0.Coords) (w w' : Vec F S16384 .f32) (x x' : Vec F S16384x64 .f32)
    (hw : win0_1.cut i w = win0_1.cut i w') (hx : win0_0.cut i x = win0_0.cut i x') :
    win0_2.cut i (scaled0 w x) = win0_2.cut i (scaled0 w' x') := by
  funext j
  show scaled0 w x (win0_2.xinj i j) = scaled0 w' x' (win0_2.xinj i j)
  have h0 : (j 0).val < 16384 := Nat.lt_of_lt_of_le (j 0).isLt (win0_2.xsize_le i 0)
  have h1 : (j 1).val < 64 := Nat.lt_of_lt_of_le (j 1).isLt (win0_2.xsize_le i 1)
  have hrl : (win0_2.xinj i j : S16384x64.Idx) = ix2 (⟨(j 0).val, h0⟩ : Fin 16384) (⟨(j 1).val, h1⟩ : Fin 64) :=
    funext fun a => Fin.ext (by match a with | ⟨0, _⟩ => rfl | ⟨1, _⟩ => rfl)
  rw [scaled0_eq, scaled0_eq, hrl, pay0_apply, pay0_apply]
  have ex : x (win0_0.xinj i j) = x' (win0_0.xinj i j) := congrFun hx j
  have hlt : (j 0).val < win0_1.xsize i 0 := by rw [xsize_row0]; exact (j 0).isLt
  obtain ⟨j1, hj1⟩ : ∃ j1 : (win0_1.xblock i).Idx, (j1 0).val = (j 0).val :=
    ⟨fun a => match a with | ⟨0, _⟩ => ⟨(j 0).val, hlt⟩, rfl⟩
  have ew : w (win0_1.xinj i j1) = w' (win0_1.xinj i j1) := congrFun hw j1
  have e0 : (ix2 (⟨(j 0).val, h0⟩ : Fin 16384) (⟨(j 1).val, h1⟩ : Fin 64) : S16384x64.Idx) = win0_0.xinj i j :=
    funext fun a => Fin.ext (by match a with | ⟨0, _⟩ => rfl | ⟨1, _⟩ => rfl)
  have e1 : (ix1 (⟨(j 0).val, h0⟩ : Fin 16384) : S16384.Idx) = win0_1.xinj i j1 :=
    funext fun a => Fin.ext (by match a with | ⟨0, _⟩ => exact hj1.symm)
  rw [e0, e1, ex, ew]

section Data
-- the TensorCore's buffer contents when the region is entered
variable (V : (c : Dev nD) → (b : Ref sig .tc) → Buf (Elt F) ((c : Thread nD τ).loc b))

/-! ## The proof data -/

/-- Window `w`'s block at point `t`, its part inside the array, read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The features' and the weights' block at point `t` filled out to a whole staging block with the zero word. -/
def xfull0 (c : Dev nD) (t : Fin cfg0.N) : S16384x64.Idx → Elt F .f32 :=
  win0_0.fill (grid0.coords t) (fun _ => Scalar.ofBits .f32 0#32) (iblk0 V c 0 t)
def wfull0 (c : Dev nD) (t : Fin cfg0.N) : S16384.Idx → Elt F .f32 :=
  win0_1.fill (grid0.coords t) (fun _ => Scalar.ofBits .f32 0#32) (iblk0 V c 1 t)

/-- The proof data on core `c`: the arrays as the region finds them; after the body the inputs' staging buffers at their
    blocks and the output's at the row-scaled block (each stated on the rows the transfers move: the windows are clipped);
    the invariant the scoped rest and the generator register; nothing owed; full shares. -/
def dat0 (c : Dev nD) : Dat τ (Elt F) Unit ℕ (UR sig nD τ) ℕ cfg0 c where
  A w := V c (Pipeline.arrRef spec0 w)
  after w t := match w with
    | ⟨0, _⟩ => xfull0 V c t
    | ⟨1, _⟩ => wfull0 V c t
    | ⟨2, _⟩ => scaled0 (wfull0 V c t) (xfull0 V c t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = xfull0 V c t := by dsimp only [dat0]
theorem after0_1 (c : Dev nD) (t : Fin cfg0.N) : (dat0 V c).after 1 t = wfull0 V c t := by dsimp only [dat0]
theorem after0_2 (c : Dev nD) (t : Fin cfg0.N) : (dat0 V c).after 2 t = scaled0 (wfull0 V c t) (xfull0 V c t) := by
  dsimp only [dat0]

/-- The output window is never fetched. -/
theorem fetch0_2 : ∀ t : Fin cfg0.N, (cfg0.win 2).fetch t = false :=
  (by decide +kernel : ∀ t : Fin grid0.N, win0_2.fetch t = false)

/-- What the body finds: the inputs' buffers just fetched — the block on the rows inside the array, `d` elsewhere —, -/
theorem before0_0 (c : Dev nD) (t : Fin cfg0.N) (d) :
    (dat0 V c).before 0 t d = win0_0.fill (grid0.coords t) d (iblk0 V c 0 t) := by
  unfold Dat.before; rw [if_pos (fetch0_0 t)]; rfl
theorem before0_1 (c : Dev nD) (t : Fin cfg0.N) (d) :
    (dat0 V c).before 1 t d = win0_1.fill (grid0.coords t) d (iblk0 V c 1 t) := by
  unfold Dat.before; rw [if_pos (fetch0_1 t)]; rfl
/-- the output's at contents nothing names (it was written back at the point before). -/
theorem before0_2 (c : Dev nD) (t : Fin cfg0.N) (d) : (dat0 V c).before 2 t d = d := by
  unfold Dat.before
  rw [if_neg (by rw [fetch0_2 t]; exact Bool.false_ne_true)]
  by_cases ht : t.val = 0
  · rw [if_pos ht]
  · rw [if_neg ht]; exact if_pos (flush0_2 _)

/-! ## The body obligation -/

set_option maxRecDepth 65536 in
/-- At every point: the inputs' buffers arrive holding their blocks filled out with some `d` past the array's end and
    leave unchanged, the output's leaves holding the row-scaled block of those — which on the rows the transfers move is
    the proof data's, whatever the `d`s (`cut_scaled0`). -/
theorem body_obligation0 (c : Dev nD) : BodyObligationLoose (dat0 (F := F) V c) (defs₀ (F := F)) Variants.none () Set.univ := fun t => by
  rw [bigSep_W0, bigSep_W0]
  simp only
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩⟩
  rw [before0_0 V c t d0, before0_1 V c t d1, before0_2 V c t d2]
  iapply (sound_scale0 (F := F) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_0.fill (grid0.coords t) d0 (iblk0 V c 0 t)) (win0_1.fill (grid0.coords t) d1 (iblk0 V c 1 t)) _)
  isplitl [H0]; · iexact H0
  isplitl [H1]; · iexact H1
  isplitl [H2]; · iexists d2; iexact H2
  iintro ⟨H0, H1, H2⟩
  isplitl [HΦ]; · iexact HΦ
  isplitl [Ho]; · iexact Ho
  have hx : win0_0.cut (grid0.coords t) (xfull0 V c t) = iblk0 V c 0 t := win0_0.cut_fill _ _ _
  have hw : win0_1.cut (grid0.coords t) (wfull0 V c t) = iblk0 V c 1 t := win0_1.cut_fill _ _ _
  have hs : win0_2.cut (grid0.coords t) (scaled0 (win0_1.fill (grid0.coords t) d1 (iblk0 V c 1 t)) (win0_0.fill (grid0.coords t) d0 (iblk0 V c 0 t)))
      = win0_2.cut (grid0.coords t) (scaled0 (wfull0 V c t) (xfull0 V c t)) :=
    cut_scaled0 _ _ _ _ _ ((win0_1.cut_fill _ _ _).trans hw.symm) ((win0_0.cut_fill _ _ _).trans hx.symm)
  isplitl [H0]
  · iexists d0
    change _ ⊢ owns (c : Thread nD τ) (stage0_0 (cfg0.slots t 0)) fullShare (win0_0.fill (grid0.coords t) d0 (win0_0.cut (grid0.coords t) (xfull0 V c t)))
    rw [hx]; try iexact H0
  isplitl [H1]
  · iexists d1
    change _ ⊢ owns (c : Thread nD τ) (stage0_1 (cfg0.slots t 1)) fullShare (win0_1.fill (grid0.coords t) d1 (win0_1.cut (grid0.coords t) (wfull0 V c t)))
    rw [hw]; try iexact H1
  · iexists scaled0 (win0_1.fill (grid0.coords t) d1 (iblk0 V c 1 t)) (win0_0.fill (grid0.coords t) d0 (iblk0 V c 0 t))
    rw [after0_2 V c t]
    have e : (win0 2).fill (grid0.coords t) (scaled0 (win0_1.fill (grid0.coords t) d1 (iblk0 V c 1 t)) (win0_0.fill (grid0.coords t) d0 (iblk0 V c 0 t)))
        ((win0 2).cut (grid0.coords t) (scaled0 (wfull0 V c t) (xfull0 V c t)))
        = scaled0 (win0_1.fill (grid0.coords t) d1 (iblk0 V c 1 t)) (win0_0.fill (grid0.coords t) d0 (iblk0 V c 0 t)) :=
      win0_2.fill_congr_cut _ hs
    rw [e]; iexact H2

end Data

end Cert.Kernel.Hand

end
-- ==== Proof.KBScaleBody1.lean ====
/-
  The edge-scaling kernel of hop 1 (pallas_call 1): one grid point multiplies a block of 16384 gathered feature rows by
  that block's 16384 edge weights, each weight spread along its row's 64 lanes. Here: the body's triple on whole staging
  buffers — it loads the weight block and the feature block, stores their row-scaled product over the whole output
  block and changes nothing else — with the stored block named as the canon of its one store.
-/
import proofs.«131668_j65876208386529_1_alg».proof.Proof.Gen.Kernel.Launch
import proofs.«131668_j65876208386529_1_alg».proof.Proof.Gen.Kernel.Skeleton
import proofs.«131668_j65876208386529_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses: each the whole staging block -/

abbrev rX1 : Rect S16384x64 := Rect.unit (s := S16384x64) ![0, 0] S16384x64.size inb_S16384x64_S16384x64_0_0
abbrev rW1 : Rect S16384 := Rect.unit (s := S16384) ![0] S16384.size inb_S16384_S16384_0

/-- What the body leaves in the output block: its one store, of the weights' block spread along the lanes times the
    features' block. -/
def scaled1 (w : Vec F S16384 .f32) (x : Vec F S16384x64 .f32) : Vec F S16384x64 .f32 :=
  View.canon [⟨rX1, k1_pay1 (View.ld w rW1) (View.ld x rX1)⟩]

/-- The one store covers the output block. -/
theorem cover_scaled1 (p0 : Vec F S16384x64 .f32) (y : S16384x64.Idx) :
    ∃ pc ∈ ([⟨rX1, p0⟩] : List (View.Piece (Elt F) S16384x64 .f32)), y ∈ pc.1.set :=
  View.cover_of_tiled [⟨rX1, p0⟩] S16384x64.size (by rfl) y

set_option maxHeartbeats 1000000 in
/-- The body on whole staging buffers: the features' at `x`, the weights' at `w`, the output's at anything; it ends with
    the first two as they were and the output's at `scaled1 w x`. -/
theorem sound_scale1 (c : Dev nD) (E : Set ℕ) (i : grid1.Coords)
    (arg1 : Memref sig .tc .vmem S16384x64 .f32) (harg1 : arg1.IsWhole)
    (arg2 : Memref sig .tc .vmem S16384 .f32) (harg2 : arg2.IsWhole)
    (arg3 : Memref sig .tc .vmem S16384x64 .f32) (harg3 : arg3.IsWhole)
    (x : Vec F S16384x64 .f32) (w : Vec F S16384 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w
            ∗ owns (c : Thread nD τ) arg3 fullShare (scaled1 w x)) -∗ K ⟨⟩))
      ⊢ wp frame (wpE (defs₀ (F := F)) Variants.none c none) E (cc1__scale_kernel i arg1 harg1 arg2 harg2 arg3 harg3) K := by
  simp only [cc1__scale_kernel_eq_skeleton]; unfold cc1__scale_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_scaled1 _)

end Cert.Kernel.Hand

end
-- ==== Proof.KBScale1.lean ====
/-
  The edge-scaling pallas_call of hop 1 as a pipeline: 68 grid points over 1,100,000 edges in blocks of 16384, the last
  block overhanging the arrays (it holds 2272 edges), so every window's transfer at that point moves only the block's
  leading rows and the rest of a staging buffer holds words nothing names. The stored value at row r, lane l is the
  feature at (r, l) times the weight of row r, so on the rows a transfer moves it depends on the inputs only on those rows:
  that is all a clipped window's obligation states. Here: the stored block at an index, the proof data, what the body
  finds in each staging buffer, and the body obligation at every point.
-/
import proofs.«131668_j65876208386529_1_alg».proof.Proof.KBScaleBody1
import Idealize.ShloMosaic.Lib.ValueIdx
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

/-! ## The stored block at an index -/

theorem hz2_1 : (![0, 0] : Fin 2 → Nat) = fun _ => 0 := funext fun a => by fin_cases a <;> rfl
theorem hz1_1 : (![0] : Fin 1 → Nat) = fun _ => 0 := funext fun a => by fin_cases a; rfl

/-- The one store covers the block, so what it leaves is its payload; the loads read the whole buffers. -/
theorem scaled1_eq (w : Vec F S16384 .f32) (x : Vec F S16384x64 .f32) : scaled1 w x = k1_pay1 w x := by
  unfold scaled1
  rw [View.canon_unit_zero hz2_1, View.ld_unit_zero (S := S16384) hz1_1, View.ld_unit_zero (S := S16384x64) hz2_1]

/-- Row r, lane l of the stored block: the feature there times row r's weight. -/
theorem pay1_apply (w : Vec F S16384 .f32) (x : Vec F S16384x64 .f32) (r : Fin 16384) (l : Fin 64) :
    k1_pay1 w x (ix2 r l) = FloatOps.mulf (x (ix2 r l)) (w (ix1 r)) := by
  unfold k1_pay1
  simp only [shapeCast_self]
  show FloatOps.mulf (x (ix2 r l)) (broadcastTo S16384x64 (shapeCast S16384x1 w shapeCasts_S16384_S16384x1) broadcasts_S16384x1_S16384x64 (ix2 r l)) = _
  rw [broadcastTo_apply _ _ (ix2 r l) (ix2 r (0 : Fin 1)) (fun a => by
      match a with
      | ⟨0, _⟩ => rfl
      | ⟨1, _⟩ => rfl),
    shapeCast_apply w _ (ix2 r (0 : Fin 1)) (ix1 r) (by
      rw [Shape.rowMajor_val_two, Shape.rowMajor_val_one]; show r.val = r.val * 1 + 0; omega)]

/-! ## The rows a transfer moves depend on the inputs only there -/

/-- The weights' and the output's windows cut their blocks at the same row. -/
theorem xsize_row1 (i : grid1.Coords) : win1_1.xsize i 0 = win1_2.xsize i 0 := rfl

/-- On the rows the transfer at `i` moves, the stored block depends only on those rows of the two input blocks. -/
theorem cut_scaled1 (i : grid1.Coords) (w w' : Vec F S16384 .f32) (x x' : Vec F S16384x64 .f32)
    (hw : win1_1.cut i w = win1_1.cut i w') (hx : win1_0.cut i x = win1_0.cut i x') :
    win1_2.cut i (scaled1 w x) = win1_2.cut i (scaled1 w' x') := by
  funext j
  show scaled1 w x (win1_2.xinj i j) = scaled1 w' x' (win1_2.xinj i j)
  have h0 : (j 0).val < 16384 := Nat.lt_of_lt_of_le (j 0).isLt (win1_2.xsize_le i 0)
  have h1 : (j 1).val < 64 := Nat.lt_of_lt_of_le (j 1).isLt (win1_2.xsize_le i 1)
  have hrl : (win1_2.xinj i j : S16384x64.Idx) = ix2 (⟨(j 0).val, h0⟩ : Fin 16384) (⟨(j 1).val, h1⟩ : Fin 64) :=
    funext fun a => Fin.ext (by match a with | ⟨0, _⟩ => rfl | ⟨1, _⟩ => rfl)
  rw [scaled1_eq, scaled1_eq, hrl, pay1_apply, pay1_apply]
  have ex : x (win1_0.xinj i j) = x' (win1_0.xinj i j) := congrFun hx j
  have hlt : (j 0).val < win1_1.xsize i 0 := by rw [xsize_row1]; exact (j 0).isLt
  obtain ⟨j1, hj1⟩ : ∃ j1 : (win1_1.xblock i).Idx, (j1 0).val = (j 0).val :=
    ⟨fun a => match a with | ⟨0, _⟩ => ⟨(j 0).val, hlt⟩, rfl⟩
  have ew : w (win1_1.xinj i j1) = w' (win1_1.xinj i j1) := congrFun hw j1
  have e0 : (ix2 (⟨(j 0).val, h0⟩ : Fin 16384) (⟨(j 1).val, h1⟩ : Fin 64) : S16384x64.Idx) = win1_0.xinj i j :=
    funext fun a => Fin.ext (by match a with | ⟨0, _⟩ => rfl | ⟨1, _⟩ => rfl)
  have e1 : (ix1 (⟨(j 0).val, h0⟩ : Fin 16384) : S16384.Idx) = win1_1.xinj i j1 :=
    funext fun a => Fin.ext (by match a with | ⟨0, _⟩ => exact hj1.symm)
  rw [e0, e1, ex, ew]

section Data
-- the TensorCore's buffer contents when the region is entered
variable (V : (c : Dev nD) → (b : Ref sig .tc) → Buf (Elt F) ((c : Thread nD τ).loc b))

/-! ## The proof data -/

/-- Window `w`'s block at point `t`, its part inside the array, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The features' and the weights' block at point `t` filled out to a whole staging block with the zero word. -/
def xfull1 (c : Dev nD) (t : Fin cfg1.N) : S16384x64.Idx → Elt F .f32 :=
  win1_0.fill (grid1.coords t) (fun _ => Scalar.ofBits .f32 0#32) (iblk1 V c 0 t)
def wfull1 (c : Dev nD) (t : Fin cfg1.N) : S16384.Idx → Elt F .f32 :=
  win1_1.fill (grid1.coords t) (fun _ => Scalar.ofBits .f32 0#32) (iblk1 V c 1 t)

/-- The proof data on core `c`: the arrays as the region finds them; after the body the inputs' staging buffers at their
    blocks and the output's at the row-scaled block (each stated on the rows the transfers move: the windows are clipped);
    the invariant the scoped rest and the generator register; nothing owed; full shares. -/
def dat1 (c : Dev nD) : Dat τ (Elt F) Unit ℕ (UR sig nD τ) ℕ cfg1 c where
  A w := V c (Pipeline.arrRef spec1 w)
  after w t := match w with
    | ⟨0, _⟩ => xfull1 V c t
    | ⟨1, _⟩ => wfull1 V c t
    | ⟨2, _⟩ => scaled1 (wfull1 V c t) (xfull1 V c t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = xfull1 V c t := by dsimp only [dat1]
theorem after1_1 (c : Dev nD) (t : Fin cfg1.N) : (dat1 V c).after 1 t = wfull1 V c t := by dsimp only [dat1]
theorem after1_2 (c : Dev nD) (t : Fin cfg1.N) : (dat1 V c).after 2 t = scaled1 (wfull1 V c t) (xfull1 V c t) := by
  dsimp only [dat1]

/-- The output window is never fetched. -/
theorem fetch1_2 : ∀ t : Fin cfg1.N, (cfg1.win 2).fetch t = false :=
  (by decide +kernel : ∀ t : Fin grid1.N, win1_2.fetch t = false)

/-- What the body finds: the inputs' buffers just fetched — the block on the rows inside the array, `d` elsewhere —, -/
theorem before1_0 (c : Dev nD) (t : Fin cfg1.N) (d) :
    (dat1 V c).before 0 t d = win1_0.fill (grid1.coords t) d (iblk1 V c 0 t) := by
  unfold Dat.before; rw [if_pos (fetch1_0 t)]; rfl
theorem before1_1 (c : Dev nD) (t : Fin cfg1.N) (d) :
    (dat1 V c).before 1 t d = win1_1.fill (grid1.coords t) d (iblk1 V c 1 t) := by
  unfold Dat.before; rw [if_pos (fetch1_1 t)]; rfl
/-- the output's at contents nothing names (it was written back at the point before). -/
theorem before1_2 (c : Dev nD) (t : Fin cfg1.N) (d) : (dat1 V c).before 2 t d = d := by
  unfold Dat.before
  rw [if_neg (by rw [fetch1_2 t]; exact Bool.false_ne_true)]
  by_cases ht : t.val = 0
  · rw [if_pos ht]
  · rw [if_neg ht]; exact if_pos (flush1_2 _)

/-! ## The body obligation -/

set_option maxRecDepth 65536 in
/-- At every point: the inputs' buffers arrive holding their blocks filled out with some `d` past the array's end and
    leave unchanged, the output's leaves holding the row-scaled block of those — which on the rows the transfers move is
    the proof data's, whatever the `d`s (`cut_scaled1`). -/
theorem body_obligation1 (c : Dev nD) : BodyObligationLoose (dat1 (F := F) V c) (defs₀ (F := F)) Variants.none () Set.univ := fun t => by
  rw [bigSep_W1, bigSep_W1]
  simp only
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩⟩
  rw [before1_0 V c t d0, before1_1 V c t d1, before1_2 V c t d2]
  iapply (sound_scale1 (F := F) c Set.univ (grid1.coords t)
    (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_0.fill (grid1.coords t) d0 (iblk1 V c 0 t)) (win1_1.fill (grid1.coords t) d1 (iblk1 V c 1 t)) _)
  isplitl [H0]; · iexact H0
  isplitl [H1]; · iexact H1
  isplitl [H2]; · iexists d2; iexact H2
  iintro ⟨H0, H1, H2⟩
  isplitl [HΦ]; · iexact HΦ
  isplitl [Ho]; · iexact Ho
  have hx : win1_0.cut (grid1.coords t) (xfull1 V c t) = iblk1 V c 0 t := win1_0.cut_fill _ _ _
  have hw : win1_1.cut (grid1.coords t) (wfull1 V c t) = iblk1 V c 1 t := win1_1.cut_fill _ _ _
  have hs : win1_2.cut (grid1.coords t) (scaled1 (win1_1.fill (grid1.coords t) d1 (iblk1 V c 1 t)) (win1_0.fill (grid1.coords t) d0 (iblk1 V c 0 t)))
      = win1_2.cut (grid1.coords t) (scaled1 (wfull1 V c t) (xfull1 V c t)) :=
    cut_scaled1 _ _ _ _ _ ((win1_1.cut_fill _ _ _).trans hw.symm) ((win1_0.cut_fill _ _ _).trans hx.symm)
  isplitl [H0]
  · iexists d0
    change _ ⊢ owns (c : Thread nD τ) (stage1_0 (cfg1.slots t 0)) fullShare (win1_0.fill (grid1.coords t) d0 (win1_0.cut (grid1.coords t) (xfull1 V c t)))
    rw [hx]; try iexact H0
  isplitl [H1]
  · iexists d1
    change _ ⊢ owns (c : Thread nD τ) (stage1_1 (cfg1.slots t 1)) fullShare (win1_1.fill (grid1.coords t) d1 (win1_1.cut (grid1.coords t) (wfull1 V c t)))
    rw [hw]; try iexact H1
  · iexists scaled1 (win1_1.fill (grid1.coords t) d1 (iblk1 V c 1 t)) (win1_0.fill (grid1.coords t) d0 (iblk1 V c 0 t))
    rw [after1_2 V c t]
    have e : (win1 2).fill (grid1.coords t) (scaled1 (win1_1.fill (grid1.coords t) d1 (iblk1 V c 1 t)) (win1_0.fill (grid1.coords t) d0 (iblk1 V c 0 t)))
        ((win1 2).cut (grid1.coords t) (scaled1 (wfull1 V c t) (xfull1 V c t)))
        = scaled1 (win1_1.fill (grid1.coords t) d1 (iblk1 V c 1 t)) (win1_0.fill (grid1.coords t) d0 (iblk1 V c 0 t)) :=
      win1_2.fill_congr_cut _ hs
    rw [e]; iexact H2

end Data

end Cert.Kernel.Hand

end
-- ==== Proof.KBLinear.lean ====
/-
  The dense layer's pallas_call as a pipeline: ten grid points, each taking a block of 10000 node rows against the whole
  64 × 64 weight matrix and the 1 × 64 bias (both fetched once, at the first point) and storing the block of products plus
  bias. The blocks tile the arrays, so every staging buffer is stated whole. Here: the body's triple, the proof data, what
  the body finds in each input's buffer, and the body obligation at every point.
-/
import proofs.«131668_j65876208386529_1_alg».proof.Proof.Gen.Kernel.Launch
import proofs.«131668_j65876208386529_1_alg».proof.Proof.Gen.Kernel.Skeleton
import proofs.«131668_j65876208386529_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses: each the whole staging block -/

abbrev rH : Rect S10000x64 := Rect.unit (s := S10000x64) ![0, 0] S10000x64.size inb_S10000x64_S10000x64_0_0
abbrev rK : Rect S64x64 := Rect.unit (s := S64x64) ![0, 0] S64x64.size inb_S64x64_S64x64_0_0
abbrev rB : Rect S1x64 := Rect.unit (s := S1x64) ![0, 0] S1x64.size inb_S1x64_S1x64_0_0

/-- What the body leaves in the output block: its one store, the rows' products with the weights plus the bias. -/
def dense (h : Vec F S10000x64 .f32) (k : Vec F S64x64 .f32) (b : Vec F S1x64 .f32) : Vec F S10000x64 .f32 :=
  View.canon [⟨rH, k2_pay1 (View.ld h rH) (View.ld k rK) (View.ld b rB)⟩]

/-- The one store covers the output block. -/
theorem cover_dense (p0 : Vec F S10000x64 .f32) (y : S10000x64.Idx) :
    ∃ pc ∈ ([⟨rH, p0⟩] : List (View.Piece (Elt F) S10000x64 .f32)), y ∈ pc.1.set :=
  View.cover_of_tiled [⟨rH, p0⟩] S10000x64.size (by rfl) y

set_option maxHeartbeats 1000000 in
/-- The body on whole staging buffers: the rows' at `h`, the weights' at `k`, the bias's at `b`, the output's at anything;
    it ends with the first three as they were and the output's at `dense h k b`. -/
theorem sound_dense (c : Dev nD) (E : Set ℕ) (i : grid2.Coords)
    (arg1 : Memref sig .tc .vmem S10000x64 .f32) (harg1 : arg1.IsWhole)
    (arg2 : Memref sig .tc .vmem S64x64 .f32) (harg2 : arg2.IsWhole)
    (arg3 : Memref sig .tc .vmem S1x64 .f32) (harg3 : arg3.IsWhole)
    (arg4 : Memref sig .tc .vmem S10000x64 .f32) (harg4 : arg4.IsWhole)
    (h : Vec F S10000x64 .f32) (k : Vec F S64x64 .f32) (b : Vec F S1x64 .f32) (K : PUnit → sProp 𝕄) :
    iprop(owns (c : Thread nD τ) arg1 fullShare h ∗ owns (c : Thread nD τ) arg2 fullShare k ∗ owns (c : Thread nD τ) arg3 fullShare b
        ∗ (∃ d, owns (c : Thread nD τ) arg4 fullShare d)
        ∗ (iprop(owns (c : Thread nD τ) arg1 fullShare h ∗ owns (c : Thread nD τ) arg2 fullShare k ∗ owns (c : Thread nD τ) arg3 fullShare b
            ∗ owns (c : Thread nD τ) arg4 fullShare (dense h k b)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_dense _)

section Data
-- the TensorCore's buffer contents when the region is entered
variable (V : (c : Dev nD) → (b : Ref sig .tc) → Buf (Elt F) ((c : Thread nD τ).loc b))

/-! ## The proof data -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (unfetched, its block
    index has not moved): for any proof data over these arrays whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The proof data on core `c`: the arrays as the region finds them; after the body each input's buffer at its block and
    the output's at `dense` of the three; the invariant the scoped rest and the generator register; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => dense (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = dense (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the triple applies; the invariant and the core's
    `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_dense c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Data

end Cert.Kernel.Hand

end
-- ==== Proof.KBRun.lean ====
/-
  The whole program's run. @main is eight items in order: three stretches of host operations (the edge lists with self
  loops, the degree-normalized weights, the gather of the first hop), the edge-scaling pallas_call of hop 0, the host's
  scatter-add and gather between the hops, the edge-scaling pallas_call of hop 1, the host's second scatter-add and the
  bias reshaped, and the dense layer's pallas_call. The buffer contents at every boundary are a fold from the launch
  memory: a host stretch applies its operations; a pallas_call leaves its arrays at what its write-backs make of them and
  every other buffer alone. Every weakly fair execution terminates with every unscoped buffer at the last boundary's
  contents; the arguments are read back through the fold to their launch contents, and the result array is the dense
  layer's output array after its ten write-backs.
-/
import proofs.«131668_j65876208386529_1_alg».proof.Proof.KBScale0
import proofs.«131668_j65876208386529_1_alg».proof.Proof.KBScale1
import proofs.«131668_j65876208386529_1_alg».proof.Proof.KBLinear
import proofs.«131668_j65876208386529_1_alg».proof.Proof.Gen.Kernel.Regions
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch, -/
abbrev W0 : Dev nD → Valuation τ sig (Elt F) := fun c b => m (c, b)
/-- after the first three host stretches, -/
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)

/-- Pallas_call 0's entry contents read at the TensorCore's references. -/
abbrev V3 : (c : Dev nD) → (b : Ref sig .tc) → Buf (Elt F) ((c : Thread nD τ).loc b) := fun c b => W3 m c b
/-- At its exit: its arrays at what the pipeline leaves (the inputs as entered, the output's write-backs folded), every
    other buffer as entered. -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev V4 : (c : Dev nD) → (b : Ref sig .tc) → Buf (Elt F) ((c : Thread nD τ).loc b) := fun c b => W4 m c b
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)

/-- After the host stretch between the hops. -/
abbrev W5 : Dev nD → Valuation τ sig (Elt F) := fun c => StableHlo.after hostOps1 (W4 m c)

/-- Pallas_call 1's entry contents read at the TensorCore's references. -/
abbrev V5 : (c : Dev nD) → (b : Ref sig .tc) → Buf (Elt F) ((c : Thread nD τ).loc b) := fun c b => W5 m c b
/-- At its exit: its arrays at what the pipeline leaves (the inputs as entered, the output's write-backs folded), every
    other buffer as entered. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

/-- After the host stretch before the dense layer. -/
abbrev W7 : Dev nD → Valuation τ sig (Elt F) := fun c => StableHlo.after hostOps2 (W6 m c)

/-- Pallas_call 2's entry contents read at the TensorCore's references. -/
abbrev V7 : (c : Dev nD) → (b : Ref sig .tc) → Buf (Elt F) ((c : Thread nD τ).loc b) := fun c b => W7 m c b
/-- At its exit: its arrays at what the pipeline leaves (the inputs as entered, the output's write-backs folded), every
    other buffer as entered. -/
def W8 (c : Dev nD) : Valuation τ sig (Elt F) :=
  Pipeline.withArrays spec2 c (W7 m c) fun w => (dat2 (V7 m) c).arrAt w cfg2.N
theorem W8_arr (c : Dev nD) (w : Fin cfg2.W) :
    W8 m c (Proc.devRef .tc (Pipeline.arrRef spec2 w)) = (dat2 (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
abbrev V8 : (c : Dev nD) → (b : Ref sig .tc) → Buf (Elt F) ((c : Thread nD τ).loc b) := fun c b => W8 m c b
theorem hF2 (c : Dev nD) (w : Fin cfg2.W) : (dat2 (V7 m) c).arrAt w cfg2.N = V8 m c (Pipeline.arrRef spec2 w) :=
  (W8_arr m c w).symm
theorem hrest2 (c : Dev nD) : ∀ b, b ∉ Finset.univ.image (Pipeline.arrRef spec2) → V8 m c b = V7 m c b :=
  fun b hb => W8_of_ne m c b fun w e => hb (Finset.mem_image.mpr ⟨w, Finset.mem_univ _, e⟩)

/-! ## The proof data family and the thread state -/

abbrev admH : (p : Fin 3) → (pcfgs (F := F) p).Adm := fun p => (cfgs p).toPCfg_adm
/-- Every pipeline's proof data, each at its pallas_call's entry contents. -/
def pdats : (p : Fin 3) → (c : Dev nD) → Dat τ (Elt F) Unit ℕ (UR sig nD τ) ℕ (Pipeline.pin (pcfgs (F := F)) admH p) c
  | ⟨0, _⟩ => fun c => dat0 (V3 m) c
  | ⟨1, _⟩ => fun c => dat1 (V5 m) c
  | ⟨2, _⟩ => fun c => dat2 (V7 m) c
abbrev 𝒱H : Variants := Variants.none
abbrev LH : GSem nD τ sig → Finset Unit := fun _ => ∅
abbrev lvH : GSem nD τ sig → Unit → ℕ := fun _ _ => 0
/-- What rides beside the buffers through every item: the generator register at some state and the core owing nothing. -/
abbrev RH (c : Dev nD) : sProp 𝕄 := iprop((∃ r, prngReg c r) ∗ ∃ W, owes (c : Thread nD τ) (0 : CellTallies nD τ sig Unit) W)
/-- A host stretch as an item: its operations over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
/-- The last thread state without the `owes`. -/
abbrev TH (c : Dev nD) : sProp 𝕄 := iprop(StableHlo.held (c : Thread nD τ) (Pipeline.ucRefs τ sig) (W8 m c) ∗ ∃ r, prngReg c r)

/-! ## The pallas_calls as items -/

set_option backward.isDefEq.respectTransparency.types false in
/-- Pallas_call 0 over the thread state: entered from every unscoped buffer at `W3`, left at `W4`. Its arrays are split
    out of the unscoped buffers and put back at the exit contents; the generator register goes into the invariant and
    comes back; nothing is owed; the kernel has no semaphore of its own. -/
def reg0 : Pipeline.RegionSeg (pcfgs (F := F)) admH (pdats m) () defs₀ 𝒱H LH lvH 0 where
  win := launch0.win.to₀
  block_pos := launch0.block_pos
  stage_whole := launch0.stage_whole
  K := PEmpty
  osem k := k.elim
  ho := Pipeline.OwnSemFacts.none _
  hbody c := body_obligation0 (V3 m) c
  hwaits := Pipeline.hwaits_of_owed_zero _ _ _ _ LH lvH 0 fun _ _ => rfl
  pre c := iprop(StableHlo.held (c : Thread nD τ) (Pipeline.ucRefs τ sig) (W3 m c) ∗ RH c)
  post c := iprop(StableHlo.held (c : Thread nD τ) (Pipeline.ucRefs τ sig) (W4 m c) ∗ RH c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 1 over the thread state: entered from every unscoped buffer at `W5`, left at `W6`. Its arrays are split
    out of the unscoped buffers and put back at the exit contents; the generator register goes into the invariant and
    comes back; nothing is owed; the kernel has no semaphore of its own. -/
def reg1 : Pipeline.RegionSeg (pcfgs (F := F)) admH (pdats m) () defs₀ 𝒱H LH lvH 1 where
  win := launch1.win.to₀
  block_pos := launch1.block_pos
  stage_whole := launch1.stage_whole
  K := PEmpty
  osem k := k.elim
  ho := Pipeline.OwnSemFacts.none _
  hbody c := body_obligation1 (V5 m) c
  hwaits := Pipeline.hwaits_of_owed_zero _ _ _ _ LH lvH 1 fun _ _ => rfl
  pre c := iprop(StableHlo.held (c : Thread nD τ) (Pipeline.ucRefs τ sig) (W5 m c) ∗ RH c)
  post c := iprop(StableHlo.held (c : Thread nD τ) (Pipeline.ucRefs τ sig) (W6 m c) ∗ RH c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) admH (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 2 over the thread state: entered from every unscoped buffer at `W7`, left at `W8`. Its arrays are split
    out of the unscoped buffers and put back at the exit contents; the generator register goes into the invariant and
    comes back; nothing is owed; the kernel has no semaphore of its own. -/
def reg2 : Pipeline.RegionSeg (pcfgs (F := F)) admH (pdats m) () defs₀ 𝒱H LH lvH 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ LH lvH 2 fun _ _ => rfl
  pre c := iprop(StableHlo.held (c : Thread nD τ) (Pipeline.ucRefs τ sig) (W7 m c) ∗ RH c)
  post c := iprop(TH m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) admH (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m) ((pdats m 2 c).share_full fun _ => rfl)
      (V7 m c) (V8 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as items, and the launch -/

abbrev segsH : List (Pipeline.Seg (pcfgs (F := F)) admH (pdats m) () defs₀ 𝒱H LH lvH) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m) ]

theorem main_run (c : Dev nD) : main (F := F) c = Pipeline.Seg.run (segsH m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with zero counters every weakly fair execution of @main terminates, nothing faulting, and every final
    state holds every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) admH (pdats m) () cellOf_inj emb₁ defs₀ 𝒱H LH lvH m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c)) (Tₙ := TH m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun _ h => h)

end Cert.Kernel.Hand

end
-- ==== Proof.KBFrame.lean ====
/-
  The frame read off the run: each argument array's buffer at the last boundary is walked back through the fold — past
  each pallas_call (whose write-backs go to its own output array; the weight matrix, an input of the dense layer, is
  read and left as entered) and past each host stretch (which writes only its own results) — to the launch memory. And
  the result array at the last boundary is the dense layer's output array after its write-backs.
-/
import proofs.«131668_j65876208386529_1_alg».proof.Proof.KBRun
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- `main_arg0` reaches the end as launched: no host stretch writes it and no pallas_call's write-backs touch it. -/
theorem W8_main_arg0 (c : Dev nD) : W8 m c (Proc.devRef .tc main_arg0) = m ((c : Thread nD τ).loc main_arg0) :=
  calc W8 m c (Proc.devRef .tc main_arg0)
    _ = W7 m c (Proc.devRef .tc main_arg0) := W8_of_ne m c main_arg0 (by decide)
    _ = W6 m c (Proc.devRef .tc main_arg0) := StableHlo.after_of_writes_sub hostOps2 _ hostOps2_writes (by decide)
    _ = W5 m c (Proc.devRef .tc main_arg0) := W6_of_ne m c main_arg0 (by decide)
    _ = W4 m c (Proc.devRef .tc main_arg0) := StableHlo.after_of_writes_sub hostOps1 _ hostOps1_writes (by decide)
    _ = W3 m c (Proc.devRef .tc main_arg0) := W4_of_ne m c main_arg0 (by decide)
    _ = W2 m c (Proc.devRef .tc main_arg0) := StableHlo.after_of_writes_sub hostOps0_2 _ hostOps0_2_writes (by decide)
    _ = W1 m c (Proc.devRef .tc main_arg0) := StableHlo.after_of_writes_sub hostOps0_1 _ hostOps0_1_writes (by decide)
    _ = W0 m c (Proc.devRef .tc main_arg0) := StableHlo.after_of_writes_sub hostOps0 _ hostOps0_writes (by decide)
    _ = m ((c : Thread nD τ).loc main_arg0) := rfl

/-- `main_arg1` reaches the end as launched: no host stretch writes it and no pallas_call's write-backs touch it. -/
theorem W8_main_arg1 (c : Dev nD) : W8 m c (Proc.devRef .tc main_arg1) = m ((c : Thread nD τ).loc main_arg1) :=
  calc W8 m c (Proc.devRef .tc main_arg1)
    _ = W7 m c (Proc.devRef .tc main_arg1) := W8_of_ne m c main_arg1 (by decide)
    _ = W6 m c (Proc.devRef .tc main_arg1) := StableHlo.after_of_writes_sub hostOps2 _ hostOps2_writes (by decide)
    _ = W5 m c (Proc.devRef .tc main_arg1) := W6_of_ne m c main_arg1 (by decide)
    _ = W4 m c (Proc.devRef .tc main_arg1) := StableHlo.after_of_writes_sub hostOps1 _ hostOps1_writes (by decide)
    _ = W3 m c (Proc.devRef .tc main_arg1) := W4_of_ne m c main_arg1 (by decide)
    _ = W2 m c (Proc.devRef .tc main_arg1) := StableHlo.after_of_writes_sub hostOps0_2 _ hostOps0_2_writes (by decide)
    _ = W1 m c (Proc.devRef .tc main_arg1) := StableHlo.after_of_writes_sub hostOps0_1 _ hostOps0_1_writes (by decide)
    _ = W0 m c (Proc.devRef .tc main_arg1) := StableHlo.after_of_writes_sub hostOps0 _ hostOps0_writes (by decide)
    _ = m ((c : Thread nD τ).loc main_arg1) := rfl

/-- `main_arg2` reaches the end as launched: no host stretch writes it and no pallas_call's write-backs touch it. -/
theorem W8_main_arg2 (c : Dev nD) : W8 m c (Proc.devRef .tc main_arg2) = m ((c : Thread nD τ).loc main_arg2) :=
  calc W8 m c (Proc.devRef .tc main_arg2)
    _ = W7 m c (Proc.devRef .tc main_arg2) := W8_of_ne m c main_arg2 (by decide)
    _ = W6 m c (Proc.devRef .tc main_arg2) := StableHlo.after_of_writes_sub hostOps2 _ hostOps2_writes (by decide)
    _ = W5 m c (Proc.devRef .tc main_arg2) := W6_of_ne m c main_arg2 (by decide)
    _ = W4 m c (Proc.devRef .tc main_arg2) := StableHlo.after_of_writes_sub hostOps1 _ hostOps1_writes (by decide)
    _ = W3 m c (Proc.devRef .tc main_arg2) := W4_of_ne m c main_arg2 (by decide)
    _ = W2 m c (Proc.devRef .tc main_arg2) := StableHlo.after_of_writes_sub hostOps0_2 _ hostOps0_2_writes (by decide)
    _ = W1 m c (Proc.devRef .tc main_arg2) := StableHlo.after_of_writes_sub hostOps0_1 _ hostOps0_1_writes (by decide)
    _ = W0 m c (Proc.devRef .tc main_arg2) := StableHlo.after_of_writes_sub hostOps0 _ hostOps0_writes (by decide)
    _ = m ((c : Thread nD τ).loc main_arg2) := rfl

/-- `main_arg3` reaches the end as launched: no host stretch writes it and no pallas_call's write-backs touch it. -/
theorem W8_main_arg3 (c : Dev nD) : W8 m c (Proc.devRef .tc main_arg3) = m ((c : Thread nD τ).loc main_arg3) :=
  calc W8 m c (Proc.devRef .tc main_arg3)
    _ = W7 m c (Proc.devRef .tc main_arg3) := (W8_arr m c 1).trans (((dat2 (V7 m) c).arrAt_in 1 rfl _).trans (A_eq2 (V7 m) c 1))
    _ = W6 m c (Proc.devRef .tc main_arg3) := StableHlo.after_of_writes_sub hostOps2 _ hostOps2_writes (by decide)
    _ = W5 m c (Proc.devRef .tc main_arg3) := W6_of_ne m c main_arg3 (by decide)
    _ = W4 m c (Proc.devRef .tc main_arg3) := StableHlo.after_of_writes_sub hostOps1 _ hostOps1_writes (by decide)
    _ = W3 m c (Proc.devRef .tc main_arg3) := W4_of_ne m c main_arg3 (by decide)
    _ = W2 m c (Proc.devRef .tc main_arg3) := StableHlo.after_of_writes_sub hostOps0_2 _ hostOps0_2_writes (by decide)
    _ = W1 m c (Proc.devRef .tc main_arg3) := StableHlo.after_of_writes_sub hostOps0_1 _ hostOps0_1_writes (by decide)
    _ = W0 m c (Proc.devRef .tc main_arg3) := StableHlo.after_of_writes_sub hostOps0 _ hostOps0_writes (by decide)
    _ = m ((c : Thread nD τ).loc main_arg3) := rfl

/-- `main_arg4` reaches the end as launched: no host stretch writes it and no pallas_call's write-backs touch it. -/
theorem W8_main_arg4 (c : Dev nD) : W8 m c (Proc.devRef .tc main_arg4) = m ((c : Thread nD τ).loc main_arg4) :=
  calc W8 m c (Proc.devRef .tc main_arg4)
    _ = W7 m c (Proc.devRef .tc main_arg4) := W8_of_ne m c main_arg4 (by decide)
    _ = W6 m c (Proc.devRef .tc main_arg4) := StableHlo.after_of_writes_sub hostOps2 _ hostOps2_writes (by decide)
    _ = W5 m c (Proc.devRef .tc main_arg4) := W6_of_ne m c main_arg4 (by decide)
    _ = W4 m c (Proc.devRef .tc main_arg4) := StableHlo.after_of_writes_sub hostOps1 _ hostOps1_writes (by decide)
    _ = W3 m c (Proc.devRef .tc main_arg4) := W4_of_ne m c main_arg4 (by decide)
    _ = W2 m c (Proc.devRef .tc main_arg4) := StableHlo.after_of_writes_sub hostOps0_2 _ hostOps0_2_writes (by decide)
    _ = W1 m c (Proc.devRef .tc main_arg4) := StableHlo.after_of_writes_sub hostOps0_1 _ hostOps0_1_writes (by decide)
    _ = W0 m c (Proc.devRef .tc main_arg4) := StableHlo.after_of_writes_sub hostOps0 _ hostOps0_writes (by decide)
    _ = m ((c : Thread nD τ).loc main_arg4) := rfl

/-- The result array at the last boundary: the dense layer's output array after its ten write-backs. -/
theorem W8_main_v55 (c : Dev nD) : W8 m c (Proc.devRef .tc main_v55) = (dat2 (V7 m) c).arrAt 3 cfg2.N := W8_arr m c 3

/-- From any memory with zero counters every weakly fair execution of @main terminates, nothing faulting, with the result
    array at the dense layer's output after its write-backs and every argument array as launched. -/
theorem run_result (ρ : Dev nD → PrngReg) : θ_run defs (onTc (τ := τ) (main (F := F))) ⟨m, fun _ => 0, ρ⟩ (fun r => ∀ c : Dev nD,
      r.2.mem ((c.tc : Thread nD τ).loc main_v55) = (dat2 (V7 m) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v55 (by decide))).trans (W8_main_v55 m c),
     (h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c),
     (h c _ (mem_uc main_arg4 (by decide))).trans (W8_main_arg4 m c)⟩)
    (run_all m ρ)

/-- The frame: the same run, the result forgotten. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_result m ρ)

end Cert.Kernel.Hand

end
-- ==== Proof.KIScaleBody0.lean ====
/-
  The edge-scaling kernel of hop 0 (pallas_call 0): one grid point multiplies a block of 16384 gathered feature rows by
  that block's 16384 edge weights, each weight spread along its row's 64 lanes. Here: the body's triple on whole staging
  buffers — it loads the weight block and the feature block, stores their row-scaled product over the whole output
  block and changes nothing else — with the stored block named as the canon of its one store.
-/
import proofs.«131668_j65876208386529_1_alg».proof.Proof.Gen.KernelIdeal.Launch
import proofs.«131668_j65876208386529_1_alg».proof.Proof.Gen.KernelIdeal.Skeleton
import proofs.«131668_j65876208386529_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses: each the whole staging block -/

abbrev rX0 : Rect S16384x64 := Rect.unit (s := S16384x64) ![0, 0] S16384x64.size inb_S16384x64_S16384x64_0_0
abbrev rW0 : Rect S16384 := Rect.unit (s := S16384) ![0] S16384.size inb_S16384_S16384_0

/-- What the body leaves in the output block: its one store, of the weights' block spread along the lanes times the
    features' block. -/
def scaled0 (w : Vec F S16384 .f32) (x : Vec F S16384x64 .f32) : Vec F S16384x64 .f32 :=
  View.canon [⟨rX0, k0_pay1 (View.ld w rW0) (View.ld x rX0)⟩]

/-- The one store covers the output block. -/
theorem cover_scaled0 (p0 : Vec F S16384x64 .f32) (y : S16384x64.Idx) :
    ∃ pc ∈ ([⟨rX0, p0⟩] : List (View.Piece (Elt F) S16384x64 .f32)), y ∈ pc.1.set :=
  View.cover_of_tiled [⟨rX0, p0⟩] S16384x64.size (by rfl) y

set_option maxHeartbeats 1000000 in
/-- The body on whole staging buffers: the features' at `x`, the weights' at `w`, the output's at anything; it ends with
    the first two as they were and the output's at `scaled0 w x`. -/
theorem sound_scale0 (c : Dev nD) (E : Set ℕ) (i : grid0.Coords)
    (arg1 : Memref sig .tc .vmem S16384x64 .f32) (harg1 : arg1.IsWhole)
    (arg2 : Memref sig .tc .vmem S16384 .f32) (harg2 : arg2.IsWhole)
    (arg3 : Memref sig .tc .vmem S16384x64 .f32) (harg3 : arg3.IsWhole)
    (x : Vec F S16384x64 .f32) (w : Vec F S16384 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w
            ∗ owns (c : Thread nD τ) arg3 fullShare (scaled0 w x)) -∗ K ⟨⟩))
      ⊢ wp frame (wpE (defs₀ (F := F)) Variants.none c none) E (cc0__scale_kernel i arg1 harg1 arg2 harg2 arg3 harg3) K := by
  simp only [cc0__scale_kernel_eq_skeleton]; unfold cc0__scale_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_scaled0 _)

end Cert.KernelIdeal.Hand

end
-- ==== Proof.KIScale0.lean ====
/-
  The edge-scaling pallas_call of hop 0 as a pipeline: 68 grid points over 1,100,000 edges in blocks of 16384, the last
  block overhanging the arrays (it holds 2272 edges), so every window's transfer at that point moves only the block's
  leading rows and the rest of a staging buffer holds words nothing names. The stored value at row r, lane l is the
  feature at (r, l) times the weight of row r, so on the rows a transfer moves it depends on the inputs only on those rows:
  that is all a clipped window's obligation states. Here: the stored block at an index, the proof data, what the body
  finds in each staging buffer, and the body obligation at every point.
-/
import proofs.«131668_j65876208386529_1_alg».proof.Proof.KIScaleBody0
import Idealize.ShloMosaic.Lib.ValueIdx
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

/-! ## The stored block at an index -/

theorem hz2_0 : (![0, 0] : Fin 2 → Nat) = fun _ => 0 := funext fun a => by fin_cases a <;> rfl
theorem hz1_0 : (![0] : Fin 1 → Nat) = fun _ => 0 := funext fun a => by fin_cases a; rfl

/-- The one store covers the block, so what it leaves is its payload; the loads read the whole buffers. -/
theorem scaled0_eq (w : Vec F S16384 .f32) (x : Vec F S16384x64 .f32) : scaled0 w x = k0_pay1 w x := by
  unfold scaled0
  rw [View.canon_unit_zero hz2_0, View.ld_unit_zero (S := S16384) hz1_0, View.ld_unit_zero (S := S16384x64) hz2_0]

/-- Row r, lane l of the stored block: the feature there times row r's weight. -/
theorem pay0_apply (w : Vec F S16384 .f32) (x : Vec F S16384x64 .f32) (r : Fin 16384) (l : Fin 64) :
    k0_pay1 w x (ix2 r l) = FloatOps.mulf (x (ix2 r l)) (w (ix1 r)) := by
  unfold k0_pay1
  simp only [shapeCast_self]
  show FloatOps.mulf (x (ix2 r l)) (broadcastTo S16384x64 (shapeCast S16384x1 w shapeCasts_S16384_S16384x1) broadcasts_S16384x1_S16384x64 (ix2 r l)) = _
  rw [broadcastTo_apply _ _ (ix2 r l) (ix2 r (0 : Fin 1)) (fun a => by
      match a with
      | ⟨0, _⟩ => rfl
      | ⟨1, _⟩ => rfl),
    shapeCast_apply w _ (ix2 r (0 : Fin 1)) (ix1 r) (by
      rw [Shape.rowMajor_val_two, Shape.rowMajor_val_one]; show r.val = r.val * 1 + 0; omega)]

/-! ## The rows a transfer moves depend on the inputs only there -/

/-- The weights' and the output's windows cut their blocks at the same row. -/
theorem xsize_row0 (i : grid0.Coords) : win0_1.xsize i 0 = win0_2.xsize i 0 := rfl

/-- On the rows the transfer at `i` moves, the stored block depends only on those rows of the two input blocks. -/
theorem cut_scaled0 (i : grid0.Coords) (w w' : Vec F S16384 .f32) (x x' : Vec F S16384x64 .f32)
    (hw : win0_1.cut i w = win0_1.cut i w') (hx : win0_0.cut i x = win0_0.cut i x') :
    win0_2.cut i (scaled0 w x) = win0_2.cut i (scaled0 w' x') := by
  funext j
  show scaled0 w x (win0_2.xinj i j) = scaled0 w' x' (win0_2.xinj i j)
  have h0 : (j 0).val < 16384 := Nat.lt_of_lt_of_le (j 0).isLt (win0_2.xsize_le i 0)
  have h1 : (j 1).val < 64 := Nat.lt_of_lt_of_le (j 1).isLt (win0_2.xsize_le i 1)
  have hrl : (win0_2.xinj i j : S16384x64.Idx) = ix2 (⟨(j 0).val, h0⟩ : Fin 16384) (⟨(j 1).val, h1⟩ : Fin 64) :=
    funext fun a => Fin.ext (by match a with | ⟨0, _⟩ => rfl | ⟨1, _⟩ => rfl)
  rw [scaled0_eq, scaled0_eq, hrl, pay0_apply, pay0_apply]
  have ex : x (win0_0.xinj i j) = x' (win0_0.xinj i j) := congrFun hx j
  have hlt : (j 0).val < win0_1.xsize i 0 := by rw [xsize_row0]; exact (j 0).isLt
  obtain ⟨j1, hj1⟩ : ∃ j1 : (win0_1.xblock i).Idx, (j1 0).val = (j 0).val :=
    ⟨fun a => match a with | ⟨0, _⟩ => ⟨(j 0).val, hlt⟩, rfl⟩
  have ew : w (win0_1.xinj i j1) = w' (win0_1.xinj i j1) := congrFun hw j1
  have e0 : (ix2 (⟨(j 0).val, h0⟩ : Fin 16384) (⟨(j 1).val, h1⟩ : Fin 64) : S16384x64.Idx) = win0_0.xinj i j :=
    funext fun a => Fin.ext (by match a with | ⟨0, _⟩ => rfl | ⟨1, _⟩ => rfl)
  have e1 : (ix1 (⟨(j 0).val, h0⟩ : Fin 16384) : S16384.Idx) = win0_1.xinj i j1 :=
    funext fun a => Fin.ext (by match a with | ⟨0, _⟩ => exact hj1.symm)
  rw [e0, e1, ex, ew]

section Data
-- the TensorCore's buffer contents when the region is entered
variable (V : (c : Dev nD) → (b : Ref sig .tc) → Buf (Elt F) ((c : Thread nD τ).loc b))

/-! ## The proof data -/

/-- Window `w`'s block at point `t`, its part inside the array, read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The features' and the weights' block at point `t` filled out to a whole staging block with the zero word. -/
def xfull0 (c : Dev nD) (t : Fin cfg0.N) : S16384x64.Idx → Elt F .f32 :=
  win0_0.fill (grid0.coords t) (fun _ => Scalar.ofBits .f32 0#32) (iblk0 V c 0 t)
def wfull0 (c : Dev nD) (t : Fin cfg0.N) : S16384.Idx → Elt F .f32 :=
  win0_1.fill (grid0.coords t) (fun _ => Scalar.ofBits .f32 0#32) (iblk0 V c 1 t)

/-- The proof data on core `c`: the arrays as the region finds them; after the body the inputs' staging buffers at their
    blocks and the output's at the row-scaled block (each stated on the rows the transfers move: the windows are clipped);
    the invariant the scoped rest and the generator register; nothing owed; full shares. -/
def dat0 (c : Dev nD) : Dat τ (Elt F) Unit ℕ (UR sig nD τ) ℕ cfg0 c where
  A w := V c (Pipeline.arrRef spec0 w)
  after w t := match w with
    | ⟨0, _⟩ => xfull0 V c t
    | ⟨1, _⟩ => wfull0 V c t
    | ⟨2, _⟩ => scaled0 (wfull0 V c t) (xfull0 V c t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = xfull0 V c t := by dsimp only [dat0]
theorem after0_1 (c : Dev nD) (t : Fin cfg0.N) : (dat0 V c).after 1 t = wfull0 V c t := by dsimp only [dat0]
theorem after0_2 (c : Dev nD) (t : Fin cfg0.N) : (dat0 V c).after 2 t = scaled0 (wfull0 V c t) (xfull0 V c t) := by
  dsimp only [dat0]

/-- The output window is never fetched. -/
theorem fetch0_2 : ∀ t : Fin cfg0.N, (cfg0.win 2).fetch t = false :=
  (by decide +kernel : ∀ t : Fin grid0.N, win0_2.fetch t = false)

/-- What the body finds: the inputs' buffers just fetched — the block on the rows inside the array, `d` elsewhere —, -/
theorem before0_0 (c : Dev nD) (t : Fin cfg0.N) (d) :
    (dat0 V c).before 0 t d = win0_0.fill (grid0.coords t) d (iblk0 V c 0 t) := by
  unfold Dat.before; rw [if_pos (fetch0_0 t)]; rfl
theorem before0_1 (c : Dev nD) (t : Fin cfg0.N) (d) :
    (dat0 V c).before 1 t d = win0_1.fill (grid0.coords t) d (iblk0 V c 1 t) := by
  unfold Dat.before; rw [if_pos (fetch0_1 t)]; rfl
/-- the output's at contents nothing names (it was written back at the point before). -/
theorem before0_2 (c : Dev nD) (t : Fin cfg0.N) (d) : (dat0 V c).before 2 t d = d := by
  unfold Dat.before
  rw [if_neg (by rw [fetch0_2 t]; exact Bool.false_ne_true)]
  by_cases ht : t.val = 0
  · rw [if_pos ht]
  · rw [if_neg ht]; exact if_pos (flush0_2 _)

/-! ## The body obligation -/

set_option maxRecDepth 65536 in
/-- At every point: the inputs' buffers arrive holding their blocks filled out with some `d` past the array's end and
    leave unchanged, the output's leaves holding the row-scaled block of those — which on the rows the transfers move is
    the proof data's, whatever the `d`s (`cut_scaled0`). -/
theorem body_obligation0 (c : Dev nD) : BodyObligationLoose (dat0 (F := F) V c) (defs₀ (F := F)) Variants.none () Set.univ := fun t => by
  rw [bigSep_W0, bigSep_W0]
  simp only
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩⟩
  rw [before0_0 V c t d0, before0_1 V c t d1, before0_2 V c t d2]
  iapply (sound_scale0 (F := F) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_0.fill (grid0.coords t) d0 (iblk0 V c 0 t)) (win0_1.fill (grid0.coords t) d1 (iblk0 V c 1 t)) _)
  isplitl [H0]; · iexact H0
  isplitl [H1]; · iexact H1
  isplitl [H2]; · iexists d2; iexact H2
  iintro ⟨H0, H1, H2⟩
  isplitl [HΦ]; · iexact HΦ
  isplitl [Ho]; · iexact Ho
  have hx : win0_0.cut (grid0.coords t) (xfull0 V c t) = iblk0 V c 0 t := win0_0.cut_fill _ _ _
  have hw : win0_1.cut (grid0.coords t) (wfull0 V c t) = iblk0 V c 1 t := win0_1.cut_fill _ _ _
  have hs : win0_2.cut (grid0.coords t) (scaled0 (win0_1.fill (grid0.coords t) d1 (iblk0 V c 1 t)) (win0_0.fill (grid0.coords t) d0 (iblk0 V c 0 t)))
      = win0_2.cut (grid0.coords t) (scaled0 (wfull0 V c t) (xfull0 V c t)) :=
    cut_scaled0 _ _ _ _ _ ((win0_1.cut_fill _ _ _).trans hw.symm) ((win0_0.cut_fill _ _ _).trans hx.symm)
  isplitl [H0]
  · iexists d0
    change _ ⊢ owns (c : Thread nD τ) (stage0_0 (cfg0.slots t 0)) fullShare (win0_0.fill (grid0.coords t) d0 (win0_0.cut (grid0.coords t) (xfull0 V c t)))
    rw [hx]; try iexact H0
  isplitl [H1]
  · iexists d1
    change _ ⊢ owns (c : Thread nD τ) (stage0_1 (cfg0.slots t 1)) fullShare (win0_1.fill (grid0.coords t) d1 (win0_1.cut (grid0.coords t) (wfull0 V c t)))
    rw [hw]; try iexact H1
  · iexists scaled0 (win0_1.fill (grid0.coords t) d1 (iblk0 V c 1 t)) (win0_0.fill (grid0.coords t) d0 (iblk0 V c 0 t))
    rw [after0_2 V c t]
    have e : (win0 2).fill (grid0.coords t) (scaled0 (win0_1.fill (grid0.coords t) d1 (iblk0 V c 1 t)) (win0_0.fill (grid0.coords t) d0 (iblk0 V c 0 t)))
        ((win0 2).cut (grid0.coords t) (scaled0 (wfull0 V c t) (xfull0 V c t)))
        = scaled0 (win0_1.fill (grid0.coords t) d1 (iblk0 V c 1 t)) (win0_0.fill (grid0.coords t) d0 (iblk0 V c 0 t)) :=
      win0_2.fill_congr_cut _ hs
    rw [e]; iexact H2

end Data

end Cert.KernelIdeal.Hand

end
-- ==== Proof.KIScaleBody1.lean ====
/-
  The edge-scaling kernel of hop 1 (pallas_call 1): one grid point multiplies a block of 16384 gathered feature rows by
  that block's 16384 edge weights, each weight spread along its row's 64 lanes. Here: the body's triple on whole staging
  buffers — it loads the weight block and the feature block, stores their row-scaled product over the whole output
  block and changes nothing else — with the stored block named as the canon of its one store.
-/
import proofs.«131668_j65876208386529_1_alg».proof.Proof.Gen.KernelIdeal.Launch
import proofs.«131668_j65876208386529_1_alg».proof.Proof.Gen.KernelIdeal.Skeleton
import proofs.«131668_j65876208386529_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses: each the whole staging block -/

abbrev rX1 : Rect S16384x64 := Rect.unit (s := S16384x64) ![0, 0] S16384x64.size inb_S16384x64_S16384x64_0_0
abbrev rW1 : Rect S16384 := Rect.unit (s := S16384) ![0] S16384.size inb_S16384_S16384_0

/-- What the body leaves in the output block: its one store, of the weights' block spread along the lanes times the
    features' block. -/
def scaled1 (w : Vec F S16384 .f32) (x : Vec F S16384x64 .f32) : Vec F S16384x64 .f32 :=
  View.canon [⟨rX1, k1_pay1 (View.ld w rW1) (View.ld x rX1)⟩]

/-- The one store covers the output block. -/
theorem cover_scaled1 (p0 : Vec F S16384x64 .f32) (y : S16384x64.Idx) :
    ∃ pc ∈ ([⟨rX1, p0⟩] : List (View.Piece (Elt F) S16384x64 .f32)), y ∈ pc.1.set :=
  View.cover_of_tiled [⟨rX1, p0⟩] S16384x64.size (by rfl) y

set_option maxHeartbeats 1000000 in
/-- The body on whole staging buffers: the features' at `x`, the weights' at `w`, the output's at anything; it ends with
    the first two as they were and the output's at `scaled1 w x`. -/
theorem sound_scale1 (c : Dev nD) (E : Set ℕ) (i : grid1.Coords)
    (arg1 : Memref sig .tc .vmem S16384x64 .f32) (harg1 : arg1.IsWhole)
    (arg2 : Memref sig .tc .vmem S16384 .f32) (harg2 : arg2.IsWhole)
    (arg3 : Memref sig .tc .vmem S16384x64 .f32) (harg3 : arg3.IsWhole)
    (x : Vec F S16384x64 .f32) (w : Vec F S16384 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w
            ∗ owns (c : Thread nD τ) arg3 fullShare (scaled1 w x)) -∗ K ⟨⟩))
      ⊢ wp frame (wpE (defs₀ (F := F)) Variants.none c none) E (cc1__scale_kernel i arg1 harg1 arg2 harg2 arg3 harg3) K := by
  simp only [cc1__scale_kernel_eq_skeleton]; unfold cc1__scale_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_scaled1 _)

end Cert.KernelIdeal.Hand

end
-- ==== Proof.KIScale1.lean ====
/-
  The edge-scaling pallas_call of hop 1 as a pipeline: 68 grid points over 1,100,000 edges in blocks of 16384, the last
  block overhanging the arrays (it holds 2272 edges), so every window's transfer at that point moves only the block's
  leading rows and the rest of a staging buffer holds words nothing names. The stored value at row r, lane l is the
  feature at (r, l) times the weight of row r, so on the rows a transfer moves it depends on the inputs only on those rows:
  that is all a clipped window's obligation states. Here: the stored block at an index, the proof data, what the body
  finds in each staging buffer, and the body obligation at every point.
-/
import proofs.«131668_j65876208386529_1_alg».proof.Proof.KIScaleBody1
import Idealize.ShloMosaic.Lib.ValueIdx
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

/-! ## The stored block at an index -/

theorem hz2_1 : (![0, 0] : Fin 2 → Nat) = fun _ => 0 := funext fun a => by fin_cases a <;> rfl
theorem hz1_1 : (![0] : Fin 1 → Nat) = fun _ => 0 := funext fun a => by fin_cases a; rfl

/-- The one store covers the block, so what it leaves is its payload; the loads read the whole buffers. -/
theorem scaled1_eq (w : Vec F S16384 .f32) (x : Vec F S16384x64 .f32) : scaled1 w x = k1_pay1 w x := by
  unfold scaled1
  rw [View.canon_unit_zero hz2_1, View.ld_unit_zero (S := S16384) hz1_1, View.ld_unit_zero (S := S16384x64) hz2_1]

/-- Row r, lane l of the stored block: the feature there times row r's weight. -/
theorem pay1_apply (w : Vec F S16384 .f32) (x : Vec F S16384x64 .f32) (r : Fin 16384) (l : Fin 64) :
    k1_pay1 w x (ix2 r l) = FloatOps.mulf (x (ix2 r l)) (w (ix1 r)) := by
  unfold k1_pay1
  simp only [shapeCast_self]
  show FloatOps.mulf (x (ix2 r l)) (broadcastTo S16384x64 (shapeCast S16384x1 w shapeCasts_S16384_S16384x1) broadcasts_S16384x1_S16384x64 (ix2 r l)) = _
  rw [broadcastTo_apply _ _ (ix2 r l) (ix2 r (0 : Fin 1)) (fun a => by
      match a with
      | ⟨0, _⟩ => rfl
      | ⟨1, _⟩ => rfl),
    shapeCast_apply w _ (ix2 r (0 : Fin 1)) (ix1 r) (by
      rw [Shape.rowMajor_val_two, Shape.rowMajor_val_one]; show r.val = r.val * 1 + 0; omega)]

/-! ## The rows a transfer moves depend on the inputs only there -/

/-- The weights' and the output's windows cut their blocks at the same row. -/
theorem xsize_row1 (i : grid1.Coords) : win1_1.xsize i 0 = win1_2.xsize i 0 := rfl

/-- On the rows the transfer at `i` moves, the stored block depends only on those rows of the two input blocks. -/
theorem cut_scaled1 (i : grid1.Coords) (w w' : Vec F S16384 .f32) (x x' : Vec F S16384x64 .f32)
    (hw : win1_1.cut i w = win1_1.cut i w') (hx : win1_0.cut i x = win1_0.cut i x') :
    win1_2.cut i (scaled1 w x) = win1_2.cut i (scaled1 w' x') := by
  funext j
  show scaled1 w x (win1_2.xinj i j) = scaled1 w' x' (win1_2.xinj i j)
  have h0 : (j 0).val < 16384 := Nat.lt_of_lt_of_le (j 0).isLt (win1_2.xsize_le i 0)
  have h1 : (j 1).val < 64 := Nat.lt_of_lt_of_le (j 1).isLt (win1_2.xsize_le i 1)
  have hrl : (win1_2.xinj i j : S16384x64.Idx) = ix2 (⟨(j 0).val, h0⟩ : Fin 16384) (⟨(j 1).val, h1⟩ : Fin 64) :=
    funext fun a => Fin.ext (by match a with | ⟨0, _⟩ => rfl | ⟨1, _⟩ => rfl)
  rw [scaled1_eq, scaled1_eq, hrl, pay1_apply, pay1_apply]
  have ex : x (win1_0.xinj i j) = x' (win1_0.xinj i j) := congrFun hx j
  have hlt : (j 0).val < win1_1.xsize i 0 := by rw [xsize_row1]; exact (j 0).isLt
  obtain ⟨j1, hj1⟩ : ∃ j1 : (win1_1.xblock i).Idx, (j1 0).val = (j 0).val :=
    ⟨fun a => match a with | ⟨0, _⟩ => ⟨(j 0).val, hlt⟩, rfl⟩
  have ew : w (win1_1.xinj i j1) = w' (win1_1.xinj i j1) := congrFun hw j1
  have e0 : (ix2 (⟨(j 0).val, h0⟩ : Fin 16384) (⟨(j 1).val, h1⟩ : Fin 64) : S16384x64.Idx) = win1_0.xinj i j :=
    funext fun a => Fin.ext (by match a with | ⟨0, _⟩ => rfl | ⟨1, _⟩ => rfl)
  have e1 : (ix1 (⟨(j 0).val, h0⟩ : Fin 16384) : S16384.Idx) = win1_1.xinj i j1 :=
    funext fun a => Fin.ext (by match a with | ⟨0, _⟩ => exact hj1.symm)
  rw [e0, e1, ex, ew]

section Data
-- the TensorCore's buffer contents when the region is entered
variable (V : (c : Dev nD) → (b : Ref sig .tc) → Buf (Elt F) ((c : Thread nD τ).loc b))

/-! ## The proof data -/

/-- Window `w`'s block at point `t`, its part inside the array, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The features' and the weights' block at point `t` filled out to a whole staging block with the zero word. -/
def xfull1 (c : Dev nD) (t : Fin cfg1.N) : S16384x64.Idx → Elt F .f32 :=
  win1_0.fill (grid1.coords t) (fun _ => Scalar.ofBits .f32 0#32) (iblk1 V c 0 t)
def wfull1 (c : Dev nD) (t : Fin cfg1.N) : S16384.Idx → Elt F .f32 :=
  win1_1.fill (grid1.coords t) (fun _ => Scalar.ofBits .f32 0#32) (iblk1 V c 1 t)

/-- The proof data on core `c`: the arrays as the region finds them; after the body the inputs' staging buffers at their
    blocks and the output's at the row-scaled block (each stated on the rows the transfers move: the windows are clipped);
    the invariant the scoped rest and the generator register; nothing owed; full shares. -/
def dat1 (c : Dev nD) : Dat τ (Elt F) Unit ℕ (UR sig nD τ) ℕ cfg1 c where
  A w := V c (Pipeline.arrRef spec1 w)
  after w t := match w with
    | ⟨0, _⟩ => xfull1 V c t
    | ⟨1, _⟩ => wfull1 V c t
    | ⟨2, _⟩ => scaled1 (wfull1 V c t) (xfull1 V c t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = xfull1 V c t := by dsimp only [dat1]
theorem after1_1 (c : Dev nD) (t : Fin cfg1.N) : (dat1 V c).after 1 t = wfull1 V c t := by dsimp only [dat1]
theorem after1_2 (c : Dev nD) (t : Fin cfg1.N) : (dat1 V c).after 2 t = scaled1 (wfull1 V c t) (xfull1 V c t) := by
  dsimp only [dat1]

/-- The output window is never fetched. -/
theorem fetch1_2 : ∀ t : Fin cfg1.N, (cfg1.win 2).fetch t = false :=
  (by decide +kernel : ∀ t : Fin grid1.N, win1_2.fetch t = false)

/-- What the body finds: the inputs' buffers just fetched — the block on the rows inside the array, `d` elsewhere —, -/
theorem before1_0 (c : Dev nD) (t : Fin cfg1.N) (d) :
    (dat1 V c).before 0 t d = win1_0.fill (grid1.coords t) d (iblk1 V c 0 t) := by
  unfold Dat.before; rw [if_pos (fetch1_0 t)]; rfl
theorem before1_1 (c : Dev nD) (t : Fin cfg1.N) (d) :
    (dat1 V c).before 1 t d = win1_1.fill (grid1.coords t) d (iblk1 V c 1 t) := by
  unfold Dat.before; rw [if_pos (fetch1_1 t)]; rfl
/-- the output's at contents nothing names (it was written back at the point before). -/
theorem before1_2 (c : Dev nD) (t : Fin cfg1.N) (d) : (dat1 V c).before 2 t d = d := by
  unfold Dat.before
  rw [if_neg (by rw [fetch1_2 t]; exact Bool.false_ne_true)]
  by_cases ht : t.val = 0
  · rw [if_pos ht]
  · rw [if_neg ht]; exact if_pos (flush1_2 _)

/-! ## The body obligation -/

set_option maxRecDepth 65536 in
/-- At every point: the inputs' buffers arrive holding their blocks filled out with some `d` past the array's end and
    leave unchanged, the output's leaves holding the row-scaled block of those — which on the rows the transfers move is
    the proof data's, whatever the `d`s (`cut_scaled1`). -/
theorem body_obligation1 (c : Dev nD) : BodyObligationLoose (dat1 (F := F) V c) (defs₀ (F := F)) Variants.none () Set.univ := fun t => by
  rw [bigSep_W1, bigSep_W1]
  simp only
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩⟩
  rw [before1_0 V c t d0, before1_1 V c t d1, before1_2 V c t d2]
  iapply (sound_scale1 (F := F) c Set.univ (grid1.coords t)
    (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_0.fill (grid1.coords t) d0 (iblk1 V c 0 t)) (win1_1.fill (grid1.coords t) d1 (iblk1 V c 1 t)) _)
  isplitl [H0]; · iexact H0
  isplitl [H1]; · iexact H1
  isplitl [H2]; · iexists d2; iexact H2
  iintro ⟨H0, H1, H2⟩
  isplitl [HΦ]; · iexact HΦ
  isplitl [Ho]; · iexact Ho
  have hx : win1_0.cut (grid1.coords t) (xfull1 V c t) = iblk1 V c 0 t := win1_0.cut_fill _ _ _
  have hw : win1_1.cut (grid1.coords t) (wfull1 V c t) = iblk1 V c 1 t := win1_1.cut_fill _ _ _
  have hs : win1_2.cut (grid1.coords t) (scaled1 (win1_1.fill (grid1.coords t) d1 (iblk1 V c 1 t)) (win1_0.fill (grid1.coords t) d0 (iblk1 V c 0 t)))
      = win1_2.cut (grid1.coords t) (scaled1 (wfull1 V c t) (xfull1 V c t)) :=
    cut_scaled1 _ _ _ _ _ ((win1_1.cut_fill _ _ _).trans hw.symm) ((win1_0.cut_fill _ _ _).trans hx.symm)
  isplitl [H0]
  · iexists d0
    change _ ⊢ owns (c : Thread nD τ) (stage1_0 (cfg1.slots t 0)) fullShare (win1_0.fill (grid1.coords t) d0 (win1_0.cut (grid1.coords t) (xfull1 V c t)))
    rw [hx]; try iexact H0
  isplitl [H1]
  · iexists d1
    change _ ⊢ owns (c : Thread nD τ) (stage1_1 (cfg1.slots t 1)) fullShare (win1_1.fill (grid1.coords t) d1 (win1_1.cut (grid1.coords t) (wfull1 V c t)))
    rw [hw]; try iexact H1
  · iexists scaled1 (win1_1.fill (grid1.coords t) d1 (iblk1 V c 1 t)) (win1_0.fill (grid1.coords t) d0 (iblk1 V c 0 t))
    rw [after1_2 V c t]
    have e : (win1 2).fill (grid1.coords t) (scaled1 (win1_1.fill (grid1.coords t) d1 (iblk1 V c 1 t)) (win1_0.fill (grid1.coords t) d0 (iblk1 V c 0 t)))
        ((win1 2).cut (grid1.coords t) (scaled1 (wfull1 V c t) (xfull1 V c t)))
        = scaled1 (win1_1.fill (grid1.coords t) d1 (iblk1 V c 1 t)) (win1_0.fill (grid1.coords t) d0 (iblk1 V c 0 t)) :=
      win1_2.fill_congr_cut _ hs
    rw [e]; iexact H2

end Data

end Cert.KernelIdeal.Hand

end
-- ==== Proof.KILinear.lean ====
/-
  The dense layer's pallas_call as a pipeline: ten grid points, each taking a block of 10000 node rows against the whole
  64 × 64 weight matrix and the 1 × 64 bias (both fetched once, at the first point) and storing the block of products plus
  bias. The blocks tile the arrays, so every staging buffer is stated whole. Here: the body's triple, the proof data, what
  the body finds in each input's buffer, and the body obligation at every point.
-/
import proofs.«131668_j65876208386529_1_alg».proof.Proof.Gen.KernelIdeal.Launch
import proofs.«131668_j65876208386529_1_alg».proof.Proof.Gen.KernelIdeal.Skeleton
import proofs.«131668_j65876208386529_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses: each the whole staging block -/

abbrev rH : Rect S10000x64 := Rect.unit (s := S10000x64) ![0, 0] S10000x64.size inb_S10000x64_S10000x64_0_0
abbrev rK : Rect S64x64 := Rect.unit (s := S64x64) ![0, 0] S64x64.size inb_S64x64_S64x64_0_0
abbrev rB : Rect S1x64 := Rect.unit (s := S1x64) ![0, 0] S1x64.size inb_S1x64_S1x64_0_0

/-- What the body leaves in the output block: its one store, the rows' products with the weights plus the bias. -/
def dense (h : Vec F S10000x64 .f32) (k : Vec F S64x64 .f32) (b : Vec F S1x64 .f32) : Vec F S10000x64 .f32 :=
  View.canon [⟨rH, k2_pay1 (View.ld h rH) (View.ld k rK) (View.ld b rB)⟩]

/-- The one store covers the output block. -/
theorem cover_dense (p0 : Vec F S10000x64 .f32) (y : S10000x64.Idx) :
    ∃ pc ∈ ([⟨rH, p0⟩] : List (View.Piece (Elt F) S10000x64 .f32)), y ∈ pc.1.set :=
  View.cover_of_tiled [⟨rH, p0⟩] S10000x64.size (by rfl) y

set_option maxHeartbeats 1000000 in
/-- The body on whole staging buffers: the rows' at `h`, the weights' at `k`, the bias's at `b`, the output's at anything;
    it ends with the first three as they were and the output's at `dense h k b`. -/
theorem sound_dense (c : Dev nD) (E : Set ℕ) (i : grid2.Coords)
    (arg1 : Memref sig .tc .vmem S10000x64 .f32) (harg1 : arg1.IsWhole)
    (arg2 : Memref sig .tc .vmem S64x64 .f32) (harg2 : arg2.IsWhole)
    (arg3 : Memref sig .tc .vmem S1x64 .f32) (harg3 : arg3.IsWhole)
    (arg4 : Memref sig .tc .vmem S10000x64 .f32) (harg4 : arg4.IsWhole)
    (h : Vec F S10000x64 .f32) (k : Vec F S64x64 .f32) (b : Vec F S1x64 .f32) (K : PUnit → sProp 𝕄) :
    iprop(owns (c : Thread nD τ) arg1 fullShare h ∗ owns (c : Thread nD τ) arg2 fullShare k ∗ owns (c : Thread nD τ) arg3 fullShare b
        ∗ (∃ d, owns (c : Thread nD τ) arg4 fullShare d)
        ∗ (iprop(owns (c : Thread nD τ) arg1 fullShare h ∗ owns (c : Thread nD τ) arg2 fullShare k ∗ owns (c : Thread nD τ) arg3 fullShare b
            ∗ owns (c : Thread nD τ) arg4 fullShare (dense h k b)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_dense _)

section Data
-- the TensorCore's buffer contents when the region is entered
variable (V : (c : Dev nD) → (b : Ref sig .tc) → Buf (Elt F) ((c : Thread nD τ).loc b))

/-! ## The proof data -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (unfetched, its block
    index has not moved): for any proof data over these arrays whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The proof data on core `c`: the arrays as the region finds them; after the body each input's buffer at its block and
    the output's at `dense` of the three; the invariant the scoped rest and the generator register; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => dense (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = dense (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the triple applies; the invariant and the core's
    `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_dense c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Data

end Cert.KernelIdeal.Hand

end
-- ==== Proof.KIRun.lean ====
/-
  The whole program's run. @main is eight items in order: three stretches of host operations (the edge lists with self
  loops, the degree-normalized weights, the gather of the first hop), the edge-scaling pallas_call of hop 0, the host's
  scatter-add and gather between the hops, the edge-scaling pallas_call of hop 1, the host's second scatter-add and the
  bias reshaped, and the dense layer's pallas_call. The buffer contents at every boundary are a fold from the launch
  memory: a host stretch applies its operations; a pallas_call leaves its arrays at what its write-backs make of them and
  every other buffer alone. Every weakly fair execution terminates with every unscoped buffer at the last boundary's
  contents; the arguments are read back through the fold to their launch contents, and the result array is the dense
  layer's output array after its ten write-backs.
-/
import proofs.«131668_j65876208386529_1_alg».proof.Proof.KIScale0
import proofs.«131668_j65876208386529_1_alg».proof.Proof.KIScale1
import proofs.«131668_j65876208386529_1_alg».proof.Proof.KILinear
import proofs.«131668_j65876208386529_1_alg».proof.Proof.Gen.KernelIdeal.Regions
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch, -/
abbrev W0 : Dev nD → Valuation τ sig (Elt F) := fun c b => m (c, b)
/-- after the first three host stretches, -/
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)

/-- Pallas_call 0's entry contents read at the TensorCore's references. -/
abbrev V3 : (c : Dev nD) → (b : Ref sig .tc) → Buf (Elt F) ((c : Thread nD τ).loc b) := fun c b => W3 m c b
/-- At its exit: its arrays at what the pipeline leaves (the inputs as entered, the output's write-backs folded), every
    other buffer as entered. -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev V4 : (c : Dev nD) → (b : Ref sig .tc) → Buf (Elt F) ((c : Thread nD τ).loc b) := fun c b => W4 m c b
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)

/-- After the host stretch between the hops. -/
abbrev W5 : Dev nD → Valuation τ sig (Elt F) := fun c => StableHlo.after hostOps1 (W4 m c)

/-- Pallas_call 1's entry contents read at the TensorCore's references. -/
abbrev V5 : (c : Dev nD) → (b : Ref sig .tc) → Buf (Elt F) ((c : Thread nD τ).loc b) := fun c b => W5 m c b
/-- At its exit: its arrays at what the pipeline leaves (the inputs as entered, the output's write-backs folded), every
    other buffer as entered. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

/-- After the host stretch before the dense layer. -/
abbrev W7 : Dev nD → Valuation τ sig (Elt F) := fun c => StableHlo.after hostOps2 (W6 m c)

/-- Pallas_call 2's entry contents read at the TensorCore's references. -/
abbrev V7 : (c : Dev nD) → (b : Ref sig .tc) → Buf (Elt F) ((c : Thread nD τ).loc b) := fun c b => W7 m c b
/-- At its exit: its arrays at what the pipeline leaves (the inputs as entered, the output's write-backs folded), every
    other buffer as entered. -/
def W8 (c : Dev nD) : Valuation τ sig (Elt F) :=
  Pipeline.withArrays spec2 c (W7 m c) fun w => (dat2 (V7 m) c).arrAt w cfg2.N
theorem W8_arr (c : Dev nD) (w : Fin cfg2.W) :
    W8 m c (Proc.devRef .tc (Pipeline.arrRef spec2 w)) = (dat2 (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
abbrev V8 : (c : Dev nD) → (b : Ref sig .tc) → Buf (Elt F) ((c : Thread nD τ).loc b) := fun c b => W8 m c b
theorem hF2 (c : Dev nD) (w : Fin cfg2.W) : (dat2 (V7 m) c).arrAt w cfg2.N = V8 m c (Pipeline.arrRef spec2 w) :=
  (W8_arr m c w).symm
theorem hrest2 (c : Dev nD) : ∀ b, b ∉ Finset.univ.image (Pipeline.arrRef spec2) → V8 m c b = V7 m c b :=
  fun b hb => W8_of_ne m c b fun w e => hb (Finset.mem_image.mpr ⟨w, Finset.mem_univ _, e⟩)

/-! ## The proof data family and the thread state -/

abbrev admH : (p : Fin 3) → (pcfgs (F := F) p).Adm := fun p => (cfgs p).toPCfg_adm
/-- Every pipeline's proof data, each at its pallas_call's entry contents. -/
def pdats : (p : Fin 3) → (c : Dev nD) → Dat τ (Elt F) Unit ℕ (UR sig nD τ) ℕ (Pipeline.pin (pcfgs (F := F)) admH p) c
  | ⟨0, _⟩ => fun c => dat0 (V3 m) c
  | ⟨1, _⟩ => fun c => dat1 (V5 m) c
  | ⟨2, _⟩ => fun c => dat2 (V7 m) c
abbrev 𝒱H : Variants := Variants.none
abbrev LH : GSem nD τ sig → Finset Unit := fun _ => ∅
abbrev lvH : GSem nD τ sig → Unit → ℕ := fun _ _ => 0
/-- What rides beside the buffers through every item: the generator register at some state and the core owing nothing. -/
abbrev RH (c : Dev nD) : sProp 𝕄 := iprop((∃ r, prngReg c r) ∗ ∃ W, owes (c : Thread nD τ) (0 : CellTallies nD τ sig Unit) W)
/-- A host stretch as an item: its operations over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
/-- The last thread state without the `owes`. -/
abbrev TH (c : Dev nD) : sProp 𝕄 := iprop(StableHlo.held (c : Thread nD τ) (Pipeline.ucRefs τ sig) (W8 m c) ∗ ∃ r, prngReg c r)

/-! ## The pallas_calls as items -/

set_option backward.isDefEq.respectTransparency.types false in
/-- Pallas_call 0 over the thread state: entered from every unscoped buffer at `W3`, left at `W4`. Its arrays are split
    out of the unscoped buffers and put back at the exit contents; the generator register goes into the invariant and
    comes back; nothing is owed; the kernel has no semaphore of its own. -/
def reg0 : Pipeline.RegionSeg (pcfgs (F := F)) admH (pdats m) () defs₀ 𝒱H LH lvH 0 where
  win := launch0.win.to₀
  block_pos := launch0.block_pos
  stage_whole := launch0.stage_whole
  K := PEmpty
  osem k := k.elim
  ho := Pipeline.OwnSemFacts.none _
  hbody c := body_obligation0 (V3 m) c
  hwaits := Pipeline.hwaits_of_owed_zero _ _ _ _ LH lvH 0 fun _ _ => rfl
  pre c := iprop(StableHlo.held (c : Thread nD τ) (Pipeline.ucRefs τ sig) (W3 m c) ∗ RH c)
  post c := iprop(StableHlo.held (c : Thread nD τ) (Pipeline.ucRefs τ sig) (W4 m c) ∗ RH c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 1 over the thread state: entered from every unscoped buffer at `W5`, left at `W6`. Its arrays are split
    out of the unscoped buffers and put back at the exit contents; the generator register goes into the invariant and
    comes back; nothing is owed; the kernel has no semaphore of its own. -/
def reg1 : Pipeline.RegionSeg (pcfgs (F := F)) admH (pdats m) () defs₀ 𝒱H LH lvH 1 where
  win := launch1.win.to₀
  block_pos := launch1.block_pos
  stage_whole := launch1.stage_whole
  K := PEmpty
  osem k := k.elim
  ho := Pipeline.OwnSemFacts.none _
  hbody c := body_obligation1 (V5 m) c
  hwaits := Pipeline.hwaits_of_owed_zero _ _ _ _ LH lvH 1 fun _ _ => rfl
  pre c := iprop(StableHlo.held (c : Thread nD τ) (Pipeline.ucRefs τ sig) (W5 m c) ∗ RH c)
  post c := iprop(StableHlo.held (c : Thread nD τ) (Pipeline.ucRefs τ sig) (W6 m c) ∗ RH c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) admH (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 2 over the thread state: entered from every unscoped buffer at `W7`, left at `W8`. Its arrays are split
    out of the unscoped buffers and put back at the exit contents; the generator register goes into the invariant and
    comes back; nothing is owed; the kernel has no semaphore of its own. -/
def reg2 : Pipeline.RegionSeg (pcfgs (F := F)) admH (pdats m) () defs₀ 𝒱H LH lvH 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ LH lvH 2 fun _ _ => rfl
  pre c := iprop(StableHlo.held (c : Thread nD τ) (Pipeline.ucRefs τ sig) (W7 m c) ∗ RH c)
  post c := iprop(TH m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) admH (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m) ((pdats m 2 c).share_full fun _ => rfl)
      (V7 m c) (V8 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as items, and the launch -/

abbrev segsH : List (Pipeline.Seg (pcfgs (F := F)) admH (pdats m) () defs₀ 𝒱H LH lvH) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m) ]

theorem main_run (c : Dev nD) : main (F := F) c = Pipeline.Seg.run (segsH m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with zero counters every weakly fair execution of @main terminates, nothing faulting, and every final
    state holds every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) admH (pdats m) () cellOf_inj emb₁ defs₀ 𝒱H LH lvH m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c)) (Tₙ := TH m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun _ h => h)

end Cert.KernelIdeal.Hand

end
-- ==== Proof.KIFrame.lean ====
/-
  The frame read off the run: each argument array's buffer at the last boundary is walked back through the fold — past
  each pallas_call (whose write-backs go to its own output array; the weight matrix, an input of the dense layer, is
  read and left as entered) and past each host stretch (which writes only its own results) — to the launch memory. And
  the result array at the last boundary is the dense layer's output array after its write-backs.
-/
import proofs.«131668_j65876208386529_1_alg».proof.Proof.KIRun
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- `main_arg0` reaches the end as launched: no host stretch writes it and no pallas_call's write-backs touch it. -/
theorem W8_main_arg0 (c : Dev nD) : W8 m c (Proc.devRef .tc main_arg0) = m ((c : Thread nD τ).loc main_arg0) :=
  calc W8 m c (Proc.devRef .tc main_arg0)
    _ = W7 m c (Proc.devRef .tc main_arg0) := W8_of_ne m c main_arg0 (by decide)
    _ = W6 m c (Proc.devRef .tc main_arg0) := StableHlo.after_of_writes_sub hostOps2 _ hostOps2_writes (by decide)
    _ = W5 m c (Proc.devRef .tc main_arg0) := W6_of_ne m c main_arg0 (by decide)
    _ = W4 m c (Proc.devRef .tc main_arg0) := StableHlo.after_of_writes_sub hostOps1 _ hostOps1_writes (by decide)
    _ = W3 m c (Proc.devRef .tc main_arg0) := W4_of_ne m c main_arg0 (by decide)
    _ = W2 m c (Proc.devRef .tc main_arg0) := StableHlo.after_of_writes_sub hostOps0_2 _ hostOps0_2_writes (by decide)
    _ = W1 m c (Proc.devRef .tc main_arg0) := StableHlo.after_of_writes_sub hostOps0_1 _ hostOps0_1_writes (by decide)
    _ = W0 m c (Proc.devRef .tc main_arg0) := StableHlo.after_of_writes_sub hostOps0 _ hostOps0_writes (by decide)
    _ = m ((c : Thread nD τ).loc main_arg0) := rfl

/-- `main_arg1` reaches the end as launched: no host stretch writes it and no pallas_call's write-backs touch it. -/
theorem W8_main_arg1 (c : Dev nD) : W8 m c (Proc.devRef .tc main_arg1) = m ((c : Thread nD τ).loc main_arg1) :=
  calc W8 m c (Proc.devRef .tc main_arg1)
    _ = W7 m c (Proc.devRef .tc main_arg1) := W8_of_ne m c main_arg1 (by decide)
    _ = W6 m c (Proc.devRef .tc main_arg1) := StableHlo.after_of_writes_sub hostOps2 _ hostOps2_writes (by decide)
    _ = W5 m c (Proc.devRef .tc main_arg1) := W6_of_ne m c main_arg1 (by decide)
    _ = W4 m c (Proc.devRef .tc main_arg1) := StableHlo.after_of_writes_sub hostOps1 _ hostOps1_writes (by decide)
    _ = W3 m c (Proc.devRef .tc main_arg1) := W4_of_ne m c main_arg1 (by decide)
    _ = W2 m c (Proc.devRef .tc main_arg1) := StableHlo.after_of_writes_sub hostOps0_2 _ hostOps0_2_writes (by decide)
    _ = W1 m c (Proc.devRef .tc main_arg1) := StableHlo.after_of_writes_sub hostOps0_1 _ hostOps0_1_writes (by decide)
    _ = W0 m c (Proc.devRef .tc main_arg1) := StableHlo.after_of_writes_sub hostOps0 _ hostOps0_writes (by decide)
    _ = m ((c : Thread nD τ).loc main_arg1) := rfl

/-- `main_arg2` reaches the end as launched: no host stretch writes it and no pallas_call's write-backs touch it. -/
theorem W8_main_arg2 (c : Dev nD) : W8 m c (Proc.devRef .tc main_arg2) = m ((c : Thread nD τ).loc main_arg2) :=
  calc W8 m c (Proc.devRef .tc main_arg2)
    _ = W7 m c (Proc.devRef .tc main_arg2) := W8_of_ne m c main_arg2 (by decide)
    _ = W6 m c (Proc.devRef .tc main_arg2) := StableHlo.after_of_writes_sub hostOps2 _ hostOps2_writes (by decide)
    _ = W5 m c (Proc.devRef .tc main_arg2) := W6_of_ne m c main_arg2 (by decide)
    _ = W4 m c (Proc.devRef .tc main_arg2) := StableHlo.after_of_writes_sub hostOps1 _ hostOps1_writes (by decide)
    _ = W3 m c (Proc.devRef .tc main_arg2) := W4_of_ne m c main_arg2 (by decide)
    _ = W2 m c (Proc.devRef .tc main_arg2) := StableHlo.after_of_writes_sub hostOps0_2 _ hostOps0_2_writes (by decide)
    _ = W1 m c (Proc.devRef .tc main_arg2) := StableHlo.after_of_writes_sub hostOps0_1 _ hostOps0_1_writes (by decide)
    _ = W0 m c (Proc.devRef .tc main_arg2) := StableHlo.after_of_writes_sub hostOps0 _ hostOps0_writes (by decide)
    _ = m ((c : Thread nD τ).loc main_arg2) := rfl

/-- `main_arg3` reaches the end as launched: no host stretch writes it and no pallas_call's write-backs touch it. -/
theorem W8_main_arg3 (c : Dev nD) : W8 m c (Proc.devRef .tc main_arg3) = m ((c : Thread nD τ).loc main_arg3) :=
  calc W8 m c (Proc.devRef .tc main_arg3)
    _ = W7 m c (Proc.devRef .tc main_arg3) := (W8_arr m c 1).trans (((dat2 (V7 m) c).arrAt_in 1 rfl _).trans (A_eq2 (V7 m) c 1))
    _ = W6 m c (Proc.devRef .tc main_arg3) := StableHlo.after_of_writes_sub hostOps2 _ hostOps2_writes (by decide)
    _ = W5 m c (Proc.devRef .tc main_arg3) := W6_of_ne m c main_arg3 (by decide)
    _ = W4 m c (Proc.devRef .tc main_arg3) := StableHlo.after_of_writes_sub hostOps1 _ hostOps1_writes (by decide)
    _ = W3 m c (Proc.devRef .tc main_arg3) := W4_of_ne m c main_arg3 (by decide)
    _ = W2 m c (Proc.devRef .tc main_arg3) := StableHlo.after_of_writes_sub hostOps0_2 _ hostOps0_2_writes (by decide)
    _ = W1 m c (Proc.devRef .tc main_arg3) := StableHlo.after_of_writes_sub hostOps0_1 _ hostOps0_1_writes (by decide)
    _ = W0 m c (Proc.devRef .tc main_arg3) := StableHlo.after_of_writes_sub hostOps0 _ hostOps0_writes (by decide)
    _ = m ((c : Thread nD τ).loc main_arg3) := rfl

/-- `main_arg4` reaches the end as launched: no host stretch writes it and no pallas_call's write-backs touch it. -/
theorem W8_main_arg4 (c : Dev nD) : W8 m c (Proc.devRef .tc main_arg4) = m ((c : Thread nD τ).loc main_arg4) :=
  calc W8 m c (Proc.devRef .tc main_arg4)
    _ = W7 m c (Proc.devRef .tc main_arg4) := W8_of_ne m c main_arg4 (by decide)
    _ = W6 m c (Proc.devRef .tc main_arg4) := StableHlo.after_of_writes_sub hostOps2 _ hostOps2_writes (by decide)
    _ = W5 m c (Proc.devRef .tc main_arg4) := W6_of_ne m c main_arg4 (by decide)
    _ = W4 m c (Proc.devRef .tc main_arg4) := StableHlo.after_of_writes_sub hostOps1 _ hostOps1_writes (by decide)
    _ = W3 m c (Proc.devRef .tc main_arg4) := W4_of_ne m c main_arg4 (by decide)
    _ = W2 m c (Proc.devRef .tc main_arg4) := StableHlo.after_of_writes_sub hostOps0_2 _ hostOps0_2_writes (by decide)
    _ = W1 m c (Proc.devRef .tc main_arg4) := StableHlo.after_of_writes_sub hostOps0_1 _ hostOps0_1_writes (by decide)
    _ = W0 m c (Proc.devRef .tc main_arg4) := StableHlo.after_of_writes_sub hostOps0 _ hostOps0_writes (by decide)
    _ = m ((c : Thread nD τ).loc main_arg4) := rfl

/-- The result array at the last boundary: the dense layer's output array after its ten write-backs. -/
theorem W8_main_v55 (c : Dev nD) : W8 m c (Proc.devRef .tc main_v55) = (dat2 (V7 m) c).arrAt 3 cfg2.N := W8_arr m c 3

/-- From any memory with zero counters every weakly fair execution of @main terminates, nothing faulting, with the result
    array at the dense layer's output after its write-backs and every argument array as launched. -/
theorem run_result (ρ : Dev nD → PrngReg) : θ_run defs (onTc (τ := τ) (main (F := F))) ⟨m, fun _ => 0, ρ⟩ (fun r => ∀ c : Dev nD,
      r.2.mem ((c.tc : Thread nD τ).loc main_v55) = (dat2 (V7 m) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v55 (by decide))).trans (W8_main_v55 m c),
     (h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c),
     (h c _ (mem_uc main_arg4 (by decide))).trans (W8_main_arg4 m c)⟩)
    (run_all m ρ)

/-- The frame: the same run, the result forgotten. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_result m ρ)

end Cert.KernelIdeal.Hand

end
-- ==== Proof.KIValueStretch.lean ====
/-
  The kernel's host stretches read as the reference's stages. Each stretch applies the same operations the reference
  does, so from any starting contents in which the buffers it reads hold reference stages, the buffers it writes hold
  the next ones: the where-call gives the inverse root degrees, the third stretch the normalized weights and the first
  hop's gathered rows, the stretch between the hops the scatter-add and the second gather, the last stretch the second
  scatter-add and the bias as one row.
-/
import proofs.«131668_j65876208386529_1_alg».proof.Proof.Gen.KernelIdeal.Launch
import proofs.«131668_j65876208386529_1_alg».proof.Proof.Gen.ReferenceIdeal.Read
import Idealize.ShloMosaic.Lib.StableHlo.Run
import Idealize.ShloMosaic.Lib.ValueIdx
import Idealize.ShloMosaic.Lib.Pipeline.Value
import Idealize.ShloMosaic.Lib.Tactic
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.StableHlo
open Idealize.ShloMosaic.ValueIdx

/-! ## The host stretches, from any starting contents -/

section Stretches
variable (Wv : Valuation τ sig (Elt Ideal))
variable (x0 : (⟨S100000x64, .f32⟩ : BufTy).Contents (Elt Ideal)) (x1 : (⟨S2x1000000, .i32⟩ : BufTy).Contents (Elt Ideal))
  (x2 : (⟨S1000000, .f32⟩ : BufTy).Contents (Elt Ideal)) (x4 : (⟨S64, .f32⟩ : BufTy).Contents (Elt Ideal))

/-- The where-call: the inverse square root of the degree where the degree is positive, else zero. -/
theorem stretch01_v15 (h13 : Wv (Proc.devRef .tc main_v13) = Cert.ReferenceIdeal.Read.val_main_v13 (F := Ideal) x1 x2)
    (h14 : Wv (Proc.devRef .tc main_v14) = Cert.ReferenceIdeal.Read.val_main_v14 (F := Ideal) x1 x2)
    (hc : Wv (Proc.devRef .tc main_cst_2) = Cert.ReferenceIdeal.Read.val_main_cst_2 (F := Ideal)) :
    StableHlo.after hostOps0_1 Wv (Proc.devRef .tc main_v15) = Cert.ReferenceIdeal.Read.val_main_v15 (F := Ideal) x1 x2 := by
  after_results
  rw [h13, h14, hc]
  unfold Cert.ReferenceIdeal.Read.val_main_v15 Cert.ReferenceIdeal.Read.val_main_call0_v1 Cert.ReferenceIdeal.Read.val_main_call0_v0
  generalize Cert.ReferenceIdeal.Read.val_main_v13 (F := Ideal) x1 x2 = A
  generalize Cert.ReferenceIdeal.Read.val_main_v14 (F := Ideal) x1 x2 = B
  generalize Cert.ReferenceIdeal.Read.val_main_cst_2 (F := Ideal) = C
  have e13 : ∀ t : main_v13.ty.Contents (Elt Ideal), (TRef.of main_v13 : TRef sig ⟨S100000, .i1⟩).ofBuf t = t := fun t => cast_eq _ _
  have e14 : ∀ t : main_v14.ty.Contents (Elt Ideal), (TRef.of main_v14 : TRef sig ⟨S100000, .f32⟩).ofBuf t = t := fun t => cast_eq _ _
  have ec : ∀ t : main_cst_2.ty.Contents (Elt Ideal), (TRef.of main_cst_2 : TRef sig ⟨S_, .f32⟩).ofBuf t = t := fun t => cast_eq _ _
  have e0o : ∀ t : main_call0_v0.ty.Contents (Elt Ideal), (TRef.of main_call0_v0 : TRef sig ⟨S_, .f32⟩).ofBuf t = t := fun t => cast_eq _ _
  have e0t : ∀ t : (⟨S_, .f32⟩ : BufTy).Contents (Elt Ideal), (TRef.of main_call0_v0 : TRef sig ⟨S_, .f32⟩).toBuf t = t := fun t => cast_eq _ _
  have e1o : ∀ t : main_call0_v1.ty.Contents (Elt Ideal), (TRef.of main_call0_v1 : TRef sig ⟨S100000, .f32⟩).ofBuf t = t := fun t => cast_eq _ _
  have e1t : ∀ t : (⟨S100000, .f32⟩ : BufTy).Contents (Elt Ideal), (TRef.of main_call0_v1 : TRef sig ⟨S100000, .f32⟩).toBuf t = t := fun t => cast_eq _ _
  have e15 : ∀ t : (⟨S100000, .f32⟩ : BufTy).Contents (Elt Ideal), (TRef.of main_v15 : TRef sig ⟨S100000, .f32⟩).toBuf t = t := fun t => cast_eq _ _
  rw [e15, e13, e14, e1o, e1t, e0o, e0t, ec]

set_option maxHeartbeats 4000000 in
/-- The normalized weights: the inverse root degree at the row, times the weight, times the inverse root degree at the column. -/
theorem stretch02_v31 (h5 : Wv (Proc.devRef .tc main_v5) = Cert.ReferenceIdeal.Read.val_main_v5 (F := Ideal) x1)
    (h6 : Wv (Proc.devRef .tc main_v6) = Cert.ReferenceIdeal.Read.val_main_v6 (F := Ideal) x1)
    (h8 : Wv (Proc.devRef .tc main_v8) = Cert.ReferenceIdeal.Read.val_main_v8 (F := Ideal) x2)
    (h15 : Wv (Proc.devRef .tc main_v15) = Cert.ReferenceIdeal.Read.val_main_v15 (F := Ideal) x1 x2) :
    StableHlo.after hostOps0_2 Wv (Proc.devRef .tc main_v31) = Cert.ReferenceIdeal.Read.val_main_v31 (F := Ideal) x1 x2 := by
  after_results
  rw [h5, h6, h8, h15]
  rfl

set_option maxHeartbeats 4000000 in
/-- The first hop's gathered rows: the features at each edge's column. -/
theorem stretch02_v38 (h6 : Wv (Proc.devRef .tc main_v6) = Cert.ReferenceIdeal.Read.val_main_v6 (F := Ideal) x1)
    (h0 : Wv (Proc.devRef .tc main_arg0) = x0) :
    StableHlo.after hostOps0_2 Wv (Proc.devRef .tc main_v38) = Cert.ReferenceIdeal.Read.val_main_v39 (F := Ideal) x0 x1 := by
  after_results
  rw [h6, h0]
  rfl

/-- Between the hops: the first hop's products scatter-added over the rows, then gathered at each edge's column. -/
theorem stretch1_v49 (h5 : Wv (Proc.devRef .tc main_v5) = Cert.ReferenceIdeal.Read.val_main_v5 (F := Ideal) x1)
    (h6 : Wv (Proc.devRef .tc main_v6) = Cert.ReferenceIdeal.Read.val_main_v6 (F := Ideal) x1)
    (h39 : Wv (Proc.devRef .tc main_v39) = Cert.ReferenceIdeal.Read.val_main_v41 (F := Ideal) x0 x1 x2) :
    StableHlo.after hostOps1 Wv (Proc.devRef .tc main_v49) = Cert.ReferenceIdeal.Read.val_main_v52 (F := Ideal) x0 x1 x2 := by
  after_results
  rw [h5, h6, h39]
  rfl

/-- Before the dense layer: the second hop's products scatter-added over the rows, -/
theorem stretch2_v53 (h5 : Wv (Proc.devRef .tc main_v5) = Cert.ReferenceIdeal.Read.val_main_v5 (F := Ideal) x1)
    (h50 : Wv (Proc.devRef .tc main_v50) = Cert.ReferenceIdeal.Read.val_main_v54 (F := Ideal) x0 x1 x2) :
    StableHlo.after hostOps2 Wv (Proc.devRef .tc main_v53) = Cert.ReferenceIdeal.Read.val_main_v57 (F := Ideal) x0 x1 x2 := by
  after_results
  rw [h5, h50]
  rfl

/-- and the bias as one row. -/
theorem stretch2_v54 (h4 : Wv (Proc.devRef .tc main_arg4) = x4) :
    StableHlo.after hostOps2 Wv (Proc.devRef .tc main_v54) = shapeCast S1x64 x4 shapeCasts_S64_S1x64 := by
  after_results
  rw [h4]
  rfl

end Stretches

end Cert.KernelIdeal.Hand

end
-- ==== Proof.KIScaleFinal0.lean ====
/-
  The edge-scaling pallas_call of hop 0, its output array after the 68 write-backs as ONE function of the input arrays:
  entry (e, l) is the gathered feature (e, l) times edge e's weight. Point t writes back rows 16384·t … of that function
  (all 16384 of them, or the last point's 2272), because the three windows move together; and every edge's row lies in
  the block of point e / 16384.
-/
import proofs.«131668_j65876208386529_1_alg».proof.Proof.KIScale0
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

/-- Every row of the edge-feature array scaled by that edge's weight. -/
def scaleRows0 (x : S1100000x64.Idx → Elt F .f32) (w : S1100000.Idx → Elt F .f32) : S1100000x64.Idx → Elt F .f32 :=
  fun i => FloatOps.mulf (x i) (w (ix1 (⟨(i 0).val, (i 0).isLt⟩ : Fin 1100000)))

/-- The printed index maps over the grid: the three windows' block indices are the point and 0, and a block holds 16384
    rows but for the last point's, which holds the array's last 2272. -/
theorem idx_facts0 : ∀ t : Fin cfg0.N,
    win0_0.index t (0 : Fin 2) = t.val ∧ win0_0.index t (1 : Fin 2) = 0
    ∧ win0_1.index t (0 : Fin 1) = t.val
    ∧ win0_2.index t (0 : Fin 2) = t.val ∧ win0_2.index t (1 : Fin 2) = 0
    ∧ win0_2.xsize (grid0.coords t) (1 : Fin 2) = 64
    ∧ (t.val < 67 → win0_2.xsize (grid0.coords t) (0 : Fin 2) = 16384)
    ∧ (t.val = 67 → win0_2.xsize (grid0.coords t) (0 : Fin 2) = 2272) :=
  (by decide +kernel : ∀ t : Fin grid0.N, _)

section Data
variable (V : (c : Dev nD) → (b : Ref sig .tc) → Buf (Elt F) ((c : Thread nD τ).loc b))

/-- What point `t` writes back is its block of the row-scaled array. -/
theorem flushed0_eq (c : Dev nD) (t : Fin cfg0.N) :
    (dat0 V c).flushed 2 t = ((cfg0.win 2).blk t).view.read (Elt F) (scaleRows0 (V c main_v38) (V c main_v31)) := by
  show (cfg0.win 2).cut (grid0.coords t) ((dat0 V c).after 2 t) = _
  rw [after0_2]
  obtain ⟨e00, e01, e10, e20, e21, -, -, -⟩ := idx_facts0 t
  funext j
  have h0 : (j 0).val < 16384 := Nat.lt_of_lt_of_le (j 0).isLt (win0_2.xsize_le (grid0.coords t) 0)
  have h1 : (j 1).val < 64 := Nat.lt_of_lt_of_le (j 1).isLt (win0_2.xsize_le (grid0.coords t) 1)
  have hrl : (win0_2.xinj (grid0.coords t) j : S16384x64.Idx) = ix2 (⟨(j 0).val, h0⟩ : Fin 16384) (⟨(j 1).val, h1⟩ : Fin 64) :=
    funext fun a => Fin.ext (by match a with | ⟨0, _⟩ => rfl | ⟨1, _⟩ => rfl)
  have hlt : (j 0).val < win0_1.xsize (grid0.coords t) 0 := by rw [xsize_row0]; exact (j 0).isLt
  obtain ⟨j1, hj1⟩ : ∃ j1 : (win0_1.xblock (grid0.coords t)).Idx, (j1 0).val = (j 0).val :=
    ⟨fun a => match a with | ⟨0, _⟩ => ⟨(j 0).val, hlt⟩, rfl⟩
  obtain ⟨j0, hj0⟩ : ∃ j0 : (win0_0.xblock (grid0.coords t)).Idx, ∀ a, (j0 a).val = (j a).val := ⟨j, fun _ => rfl⟩
  have e0 : (ix2 (⟨(j 0).val, h0⟩ : Fin 16384) (⟨(j 1).val, h1⟩ : Fin 64) : S16384x64.Idx) = win0_0.xinj (grid0.coords t) j0 :=
    funext fun a => Fin.ext (by match a with | ⟨0, _⟩ => exact (hj0 0).symm | ⟨1, _⟩ => exact (hj0 1).symm)
  have e1 : (ix1 (⟨(j 0).val, h0⟩ : Fin 16384) : S16384.Idx) = win0_1.xinj (grid0.coords t) j1 :=
    funext fun a => Fin.ext (by match a with | ⟨0, _⟩ => exact hj1.symm)
  show scaled0 (wfull0 V c t) (xfull0 V c t) (win0_2.xinj (grid0.coords t) j) = _
  rw [scaled0_eq, hrl, pay0_apply, e0, e1]
  unfold xfull0 wfull0
  rw [win0_0.fill_xinj, win0_1.fill_xinj]
  show FloatOps.mulf (V c main_v38 (((cfg0.win 0).blk t).view.emb j0)) (V c main_v31 (((cfg0.win 1).blk t).view.emb j1))
    = FloatOps.mulf (V c main_v38 (((cfg0.win 2).blk t).view.emb j))
        (V c main_v31 (ix1 (⟨((((cfg0.win 2).blk t).view.emb j) 0).val, ((((cfg0.win 2).blk t).view.emb j) 0).isLt⟩ : Fin 1100000)))
  have hx : ((cfg0.win 0).blk t).view.emb j0 = ((cfg0.win 2).blk t).view.emb j := by
    have q0 := hj0 0
    have q1 := hj0 1
    funext a; apply Fin.ext
    match a with
    | ⟨0, _⟩ => show win0_0.index t (0 : Fin 2) * 16384 + 1 * (j0 0).val = win0_2.index t (0 : Fin 2) * 16384 + 1 * (j 0).val; omega
    | ⟨1, _⟩ => show win0_0.index t (1 : Fin 2) * 64 + 1 * (j0 1).val = win0_2.index t (1 : Fin 2) * 64 + 1 * (j 1).val; omega
  have hw : ((cfg0.win 1).blk t).view.emb j1
      = ix1 (⟨((((cfg0.win 2).blk t).view.emb j) 0).val, ((((cfg0.win 2).blk t).view.emb j) 0).isLt⟩ : Fin 1100000) := by
    funext a; apply Fin.ext
    match a with
    | ⟨0, _⟩ => show win0_1.index t (0 : Fin 1) * 16384 + 1 * (j1 0).val = win0_2.index t (0 : Fin 2) * 16384 + 1 * (j 0).val; omega
  rw [hx, hw]

/-- An index of the output array is in point `t`'s block iff each coordinate is in the block's range on its axis. -/
theorem mem_blk0 (t : Fin cfg0.N) (i : S1100000x64.Idx) :
    i ∈ ((cfg0.win 2).blk t).view.set ↔ ∀ a : Fin 2, win0_2.index t a * S16384x64.size a ≤ (i a).val
      ∧ (i a).val < win0_2.index t a * S16384x64.size a + win0_2.xsize (grid0.coords t) a := by
  show i ∈ ((View.whole main_v39).slice (win0_2.rect t)).set ↔ _
  rw [View.set_slice_whole, Rect.mem_set_unit]
  exact Iff.rfl

/-- Every index of the output array is in the block of the point its row divided by 16384 names. -/
theorem cover0 (i : S1100000x64.Idx) :
    ∃ t : Fin cfg0.N, (cfg0.win 2).flush t = true ∧ i ∈ ((cfg0.win 2).blk t).view.set := by
  have hi0 : (i 0).val < 1100000 := (i 0).isLt
  have hi1 : (i 1).val < 64 := (i 1).isLt
  have ht : (i 0).val / 16384 < grid0.N := by rw [N_0]; omega
  refine ⟨⟨(i 0).val / 16384, ht⟩, flush0_2 _, ?_⟩
  rw [mem_blk0]
  obtain ⟨-, -, -, e20, e21, e2s1, e2s0, e2s0'⟩ := idx_facts0 ⟨(i 0).val / 16384, ht⟩
  have ev : (⟨(i 0).val / 16384, ht⟩ : Fin cfg0.N).val = (i 0).val / 16384 := rfl
  intro a
  match a with
  | ⟨0, _⟩ =>
    show win0_2.index ⟨(i 0).val / 16384, ht⟩ (0 : Fin 2) * 16384 ≤ (i 0).val
      ∧ (i 0).val < win0_2.index ⟨(i 0).val / 16384, ht⟩ (0 : Fin 2) * 16384 + win0_2.xsize (grid0.coords ⟨(i 0).val / 16384, ht⟩) (0 : Fin 2)
    rw [e20, ev]
    by_cases h67 : (i 0).val / 16384 < 67
    · rw [e2s0 (by rw [ev]; exact h67)]; omega
    · rw [e2s0' (by rw [ev]; omega)]; omega
  | ⟨1, _⟩ =>
    show win0_2.index ⟨(i 0).val / 16384, ht⟩ (1 : Fin 2) * 64 ≤ (i 1).val
      ∧ (i 1).val < win0_2.index ⟨(i 0).val / 16384, ht⟩ (1 : Fin 2) * 64 + win0_2.xsize (grid0.coords ⟨(i 0).val / 16384, ht⟩) (1 : Fin 2)
    rw [e21, e2s1]; omega

/-- The output array after the run: every gathered feature row scaled by its edge's weight. -/
theorem final0 (c : Dev nD) : (dat0 V c).arrAt 2 cfg0.N = scaleRows0 (V c main_v38) (V c main_v31) :=
  (dat0 V c).arrAt_eq_of_cover 2 _ (fun t _ => flushed0_eq V c t) (cover0)

end Data

end Cert.KernelIdeal.Hand

end
-- ==== Proof.KIScaleFinal1.lean ====
/-
  The edge-scaling pallas_call of hop 1, its output array after the 68 write-backs as ONE function of the input arrays:
  entry (e, l) is the gathered feature (e, l) times edge e's weight. Point t writes back rows 16384·t … of that function
  (all 16384 of them, or the last point's 2272), because the three windows move together; and every edge's row lies in
  the block of point e / 16384.
-/
import proofs.«131668_j65876208386529_1_alg».proof.Proof.KIScale1
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

/-- Every row of the edge-feature array scaled by that edge's weight. -/
def scaleRows1 (x : S1100000x64.Idx → Elt F .f32) (w : S1100000.Idx → Elt F .f32) : S1100000x64.Idx → Elt F .f32 :=
  fun i => FloatOps.mulf (x i) (w (ix1 (⟨(i 0).val, (i 0).isLt⟩ : Fin 1100000)))

/-- The printed index maps over the grid: the three windows' block indices are the point and 0, and a block holds 16384
    rows but for the last point's, which holds the array's last 2272. -/
theorem idx_facts1 : ∀ t : Fin cfg1.N,
    win1_0.index t (0 : Fin 2) = t.val ∧ win1_0.index t (1 : Fin 2) = 0
    ∧ win1_1.index t (0 : Fin 1) = t.val
    ∧ win1_2.index t (0 : Fin 2) = t.val ∧ win1_2.index t (1 : Fin 2) = 0
    ∧ win1_2.xsize (grid1.coords t) (1 : Fin 2) = 64
    ∧ (t.val < 67 → win1_2.xsize (grid1.coords t) (0 : Fin 2) = 16384)
    ∧ (t.val = 67 → win1_2.xsize (grid1.coords t) (0 : Fin 2) = 2272) :=
  (by decide +kernel : ∀ t : Fin grid1.N, _)

section Data
variable (V : (c : Dev nD) → (b : Ref sig .tc) → Buf (Elt F) ((c : Thread nD τ).loc b))

/-- What point `t` writes back is its block of the row-scaled array. -/
theorem flushed1_eq (c : Dev nD) (t : Fin cfg1.N) :
    (dat1 V c).flushed 2 t = ((cfg1.win 2).blk t).view.read (Elt F) (scaleRows1 (V c main_v49) (V c main_v31)) := by
  show (cfg1.win 2).cut (grid1.coords t) ((dat1 V c).after 2 t) = _
  rw [after1_2]
  obtain ⟨e00, e01, e10, e20, e21, -, -, -⟩ := idx_facts1 t
  funext j
  have h0 : (j 0).val < 16384 := Nat.lt_of_lt_of_le (j 0).isLt (win1_2.xsize_le (grid1.coords t) 0)
  have h1 : (j 1).val < 64 := Nat.lt_of_lt_of_le (j 1).isLt (win1_2.xsize_le (grid1.coords t) 1)
  have hrl : (win1_2.xinj (grid1.coords t) j : S16384x64.Idx) = ix2 (⟨(j 0).val, h0⟩ : Fin 16384) (⟨(j 1).val, h1⟩ : Fin 64) :=
    funext fun a => Fin.ext (by match a with | ⟨0, _⟩ => rfl | ⟨1, _⟩ => rfl)
  have hlt : (j 0).val < win1_1.xsize (grid1.coords t) 0 := by rw [xsize_row1]; exact (j 0).isLt
  obtain ⟨j1, hj1⟩ : ∃ j1 : (win1_1.xblock (grid1.coords t)).Idx, (j1 0).val = (j 0).val :=
    ⟨fun a => match a with | ⟨0, _⟩ => ⟨(j 0).val, hlt⟩, rfl⟩
  obtain ⟨j0, hj0⟩ : ∃ j0 : (win1_0.xblock (grid1.coords t)).Idx, ∀ a, (j0 a).val = (j a).val := ⟨j, fun _ => rfl⟩
  have e0 : (ix2 (⟨(j 0).val, h0⟩ : Fin 16384) (⟨(j 1).val, h1⟩ : Fin 64) : S16384x64.Idx) = win1_0.xinj (grid1.coords t) j0 :=
    funext fun a => Fin.ext (by match a with | ⟨0, _⟩ => exact (hj0 0).symm | ⟨1, _⟩ => exact (hj0 1).symm)
  have e1 : (ix1 (⟨(j 0).val, h0⟩ : Fin 16384) : S16384.Idx) = win1_1.xinj (grid1.coords t) j1 :=
    funext fun a => Fin.ext (by match a with | ⟨0, _⟩ => exact hj1.symm)
  show scaled1 (wfull1 V c t) (xfull1 V c t) (win1_2.xinj (grid1.coords t) j) = _
  rw [scaled1_eq, hrl, pay1_apply, e0, e1]
  unfold xfull1 wfull1
  rw [win1_0.fill_xinj, win1_1.fill_xinj]
  show FloatOps.mulf (V c main_v49 (((cfg1.win 0).blk t).view.emb j0)) (V c main_v31 (((cfg1.win 1).blk t).view.emb j1))
    = FloatOps.mulf (V c main_v49 (((cfg1.win 2).blk t).view.emb j))
        (V c main_v31 (ix1 (⟨((((cfg1.win 2).blk t).view.emb j) 0).val, ((((cfg1.win 2).blk t).view.emb j) 0).isLt⟩ : Fin 1100000)))
  have hx : ((cfg1.win 0).blk t).view.emb j0 = ((cfg1.win 2).blk t).view.emb j := by
    have q0 := hj0 0
    have q1 := hj0 1
    funext a; apply Fin.ext
    match a with
    | ⟨0, _⟩ => show win1_0.index t (0 : Fin 2) * 16384 + 1 * (j0 0).val = win1_2.index t (0 : Fin 2) * 16384 + 1 * (j 0).val; omega
    | ⟨1, _⟩ => show win1_0.index t (1 : Fin 2) * 64 + 1 * (j0 1).val = win1_2.index t (1 : Fin 2) * 64 + 1 * (j 1).val; omega
  have hw : ((cfg1.win 1).blk t).view.emb j1
      = ix1 (⟨((((cfg1.win 2).blk t).view.emb j) 0).val, ((((cfg1.win 2).blk t).view.emb j) 0).isLt⟩ : Fin 1100000) := by
    funext a; apply Fin.ext
    match a with
    | ⟨0, _⟩ => show win1_1.index t (0 : Fin 1) * 16384 + 1 * (j1 0).val = win1_2.index t (0 : Fin 2) * 16384 + 1 * (j 0).val; omega
  rw [hx, hw]

/-- An index of the output array is in point `t`'s block iff each coordinate is in the block's range on its axis. -/
theorem mem_blk1 (t : Fin cfg1.N) (i : S1100000x64.Idx) :
    i ∈ ((cfg1.win 2).blk t).view.set ↔ ∀ a : Fin 2, win1_2.index t a * S16384x64.size a ≤ (i a).val
      ∧ (i a).val < win1_2.index t a * S16384x64.size a + win1_2.xsize (grid1.coords t) a := by
  show i ∈ ((View.whole main_v50).slice (win1_2.rect t)).set ↔ _
  rw [View.set_slice_whole, Rect.mem_set_unit]
  exact Iff.rfl

/-- Every index of the output array is in the block of the point its row divided by 16384 names. -/
theorem cover1 (i : S1100000x64.Idx) :
    ∃ t : Fin cfg1.N, (cfg1.win 2).flush t = true ∧ i ∈ ((cfg1.win 2).blk t).view.set := by
  have hi0 : (i 0).val < 1100000 := (i 0).isLt
  have hi1 : (i 1).val < 64 := (i 1).isLt
  have ht : (i 0).val / 16384 < grid1.N := by rw [N_1]; omega
  refine ⟨⟨(i 0).val / 16384, ht⟩, flush1_2 _, ?_⟩
  rw [mem_blk1]
  obtain ⟨-, -, -, e20, e21, e2s1, e2s0, e2s0'⟩ := idx_facts1 ⟨(i 0).val / 16384, ht⟩
  have ev : (⟨(i 0).val / 16384, ht⟩ : Fin cfg1.N).val = (i 0).val / 16384 := rfl
  intro a
  match a with
  | ⟨0, _⟩ =>
    show win1_2.index ⟨(i 0).val / 16384, ht⟩ (0 : Fin 2) * 16384 ≤ (i 0).val
      ∧ (i 0).val < win1_2.index ⟨(i 0).val / 16384, ht⟩ (0 : Fin 2) * 16384 + win1_2.xsize (grid1.coords ⟨(i 0).val / 16384, ht⟩) (0 : Fin 2)
    rw [e20, ev]
    by_cases h67 : (i 0).val / 16384 < 67
    · rw [e2s0 (by rw [ev]; exact h67)]; omega
    · rw [e2s0' (by rw [ev]; omega)]; omega
  | ⟨1, _⟩ =>
    show win1_2.index ⟨(i 0).val / 16384, ht⟩ (1 : Fin 2) * 64 ≤ (i 1).val
      ∧ (i 1).val < win1_2.index ⟨(i 0).val / 16384, ht⟩ (1 : Fin 2) * 64 + win1_2.xsize (grid1.coords ⟨(i 0).val / 16384, ht⟩) (1 : Fin 2)
    rw [e21, e2s1]; omega

/-- The output array after the run: every gathered feature row scaled by its edge's weight. -/
theorem final1 (c : Dev nD) : (dat1 V c).arrAt 2 cfg1.N = scaleRows1 (V c main_v49) (V c main_v31) :=
  (dat1 V c).arrAt_eq_of_cover 2 _ (fun t _ => flushed1_eq V c t) (cover1)

end Data

end Cert.KernelIdeal.Hand

end
-- ==== Proof.KIDenseFinal.lean ====
/-
  The dense layer's pallas_call at the ideal instance, its output array after the ten write-backs as ONE function of its
  input arrays: entry (i, l) is the sum over q of h(i, q) · k(q, l), plus the bias b(0, l). At the ideal instance the
  casts to bf16 are the identity and the matrix unit's product into a zero accumulator is that plain sum. Point t writes
  back rows 10000·t … 10000·t + 9999 of the function, and the ten blocks tile the array.
-/
import proofs.«131668_j65876208386529_1_alg».proof.Proof.KILinear
import Idealize.ShloMosaic.Lib.ValueIdx
import Idealize.ShloMosaic.PureOps.Ideal.Laws
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx

/-- The node features times the weight matrix, plus the bias row. -/
def denseRows (h : S100000x64.Idx → EReal) (k : S64x64.Idx → EReal) (b : S1x64.Idx → EReal) : S100000x64.Idx → EReal :=
  fun i => (∑ q : Fin 64, h (ix2 (⟨(i 0).val, (i 0).isLt⟩ : Fin 100000) q) * k (ix2 q (⟨(i 1).val, (i 1).isLt⟩ : Fin 64)))
    + b (ix2 (0 : Fin 1) (⟨(i 1).val, (i 1).isLt⟩ : Fin 64))

theorem lhsD_0 (i : S10000x64.Idx) (q : dot_S10000x64_S64x64_S10000x64_1_0_0_1_n_n.contr.Idx) : (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhsD_1 (i : S10000x64.Idx) (q : dot_S10000x64_S64x64_S10000x64_1_0_0_1_n_n.contr.Idx) : (dot_S10000x64_S64x64_S10000x64_1_0_0_1_n_n.lhsIdx i q 1).val = (q ⟨0, by decide⟩).val :=
  dot_S10000x64_S64x64_S10000x64_1_0_0_1_n_n.lhsIdx_val_of_single rfl i q
theorem rhsD_0 (i : S10000x64.Idx) (q : dot_S10000x64_S64x64_S10000x64_1_0_0_1_n_n.contr.Idx) : (dot_S10000x64_S64x64_S10000x64_1_0_0_1_n_n.rhsIdx i q 0).val = (q ⟨0, by decide⟩).val :=
  dot_S10000x64_S64x64_S10000x64_1_0_0_1_n_n.rhsIdx_val_of_single rfl i q
theorem rhsD_1 (i : S10000x64.Idx) (q : dot_S10000x64_S64x64_S10000x64_1_0_0_1_n_n.contr.Idx) : (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- Row r, lane l of the stored block: row r of the features' block against column l of the weights, plus the bias at l. -/
theorem pay2_apply (h : Vec Ideal S10000x64 .f32) (k : Vec Ideal S64x64 .f32) (b : Vec Ideal S1x64 .f32) (r : Fin 10000) (l : Fin 64) :
    k2_pay1 (F := Ideal) h k b (ix2 r l) = (∑ q : Fin 64, h (ix2 r q) * k (ix2 q l)) + b (ix2 (0 : Fin 1) l) := by
  unfold k2_pay1
  simp only [shapeCast_self, matmul]
  rw [addf_apply, Ideal.matmul_constant_zero_apply, ← Equiv.sum_comp (contrEquiv1 dot_S10000x64_S64x64_S10000x64_1_0_0_1_n_n 64 rfl rfl).symm,
    broadcastTo_apply b _ (ix2 r l) (ix2 (0 : Fin 1) l) (fun a => by
      match a with
      | ⟨0, _⟩ => rfl
      | ⟨1, _⟩ => rfl)]
  congr 1
  refine Finset.sum_congr rfl fun q _ => ?_
  have hk := contrEquiv1_symm_val dot_S10000x64_S64x64_S10000x64_1_0_0_1_n_n 64 rfl rfl q
  have el : dot_S10000x64_S64x64_S10000x64_1_0_0_1_n_n.lhsIdx (ix2 r l) ((contrEquiv1 dot_S10000x64_S64x64_S10000x64_1_0_0_1_n_n 64 rfl rfl).symm q) = ix2 r q := funext fun a => Fin.ext (by
    match a with
    | ⟨0, _⟩ => exact lhsD_0 _ _
    | ⟨1, _⟩ => exact (lhsD_1 _ _).trans hk)
  have er : dot_S10000x64_S64x64_S10000x64_1_0_0_1_n_n.rhsIdx (ix2 r l) ((contrEquiv1 dot_S10000x64_S64x64_S10000x64_1_0_0_1_n_n 64 rfl rfl).symm q) = ix2 q l := funext fun a => Fin.ext (by
    match a with
    | ⟨0, _⟩ => exact (rhsD_0 _ _).trans hk
    | ⟨1, _⟩ => exact rhsD_1 _ _)
  rw [el, er]
  rfl

theorem hz2_d : (![0, 0] : Fin 2 → Nat) = fun _ => 0 := funext fun a => by fin_cases a <;> rfl

/-- The printed index maps over the ten points: the features' and the output's block indices are the point and 0, the
    weights' and the bias's block is always the first. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

section Data
variable (V : (c : Dev nD) → (b : Ref sig .tc) → Buf (Elt Ideal) ((c : Thread nD τ).loc b))

/-- What point `t` writes back is its block of the dense layer's whole-array function. -/
theorem flushed2_eq (c : Dev nD) (t : Fin cfg2.N) :
    (dat2 (F := Ideal) V c).flushed 3 t
      = ((cfg2.win 3).blk t).view.read (Elt Ideal) (denseRows (V c main_v53) (V c main_arg3) (V c main_v54)) := by
  show (cfg2.win 3).cut (grid2.coords t) ((dat2 (F := Ideal) V c).after 3 t) = _
  rw [after2_3]
  unfold dense
  rw [View.canon_unit_zero hz2_d]
  simp only [View.ld_unit_zero (S := S10000x64) hz2_d, View.ld_unit_zero (S := S64x64) hz2_d, View.ld_unit_zero (S := S1x64) hz2_d]
  obtain ⟨e00, e01, e10, e11, e20, e21, e30, e31⟩ := idx_facts2 t
  funext j
  have h0 : (j 0).val < 10000 := Nat.lt_of_lt_of_le (j 0).isLt (win2_3.xsize_le (grid2.coords t) 0)
  have h1 : (j 1).val < 64 := Nat.lt_of_lt_of_le (j 1).isLt (win2_3.xsize_le (grid2.coords t) 1)
  have hrl : (win2_3.xinj (grid2.coords t) j : S10000x64.Idx) = ix2 (⟨(j 0).val, h0⟩ : Fin 10000) (⟨(j 1).val, h1⟩ : Fin 64) :=
    funext fun a => Fin.ext (by match a with | ⟨0, _⟩ => rfl | ⟨1, _⟩ => rfl)
  show k2_pay1 (F := Ideal) (iblk2 V c 0 t) (iblk2 V c 1 t) (iblk2 V c 2 t) (win2_3.xinj (grid2.coords t) j) = _
  rw [hrl, pay2_apply]
  have key : ∀ (H : S100000x64.Idx → EReal) (K : S64x64.Idx → EReal) (B : S1x64.Idx → EReal),
      (∑ q : Fin 64, H (((cfg2.win 0).blk t).view.emb (ix2 (⟨(j 0).val, h0⟩ : Fin 10000) q))
          * K (((cfg2.win 1).blk t).view.emb (ix2 q (⟨(j 1).val, h1⟩ : Fin 64))))
        + B (((cfg2.win 2).blk t).view.emb (ix2 (0 : Fin 1) (⟨(j 1).val, h1⟩ : Fin 64)))
      = denseRows H K B (((cfg2.win 3).blk t).view.emb j) := by
    intro H K B
    unfold denseRows
    have hi0 : ((((cfg2.win 3).blk t).view.emb j) 0).val = t.val * 10000 + (j 0).val := by
      show win2_3.index t (0 : Fin 2) * 10000 + 1 * (j 0).val = _; omega
    have hi1 : ((((cfg2.win 3).blk t).view.emb j) 1).val = (j 1).val := by
      show win2_3.index t (1 : Fin 2) * 64 + 1 * (j 1).val = _; omega
    congr 1
    · refine Finset.sum_congr rfl fun q _ => ?_
      congr 1
      · refine congrArg H (funext fun a => Fin.ext ?_)
        match a with
        | ⟨0, _⟩ => show win2_0.index t (0 : Fin 2) * 10000 + 1 * (j 0).val = ((((cfg2.win 3).blk t).view.emb j) 0).val; omega
        | ⟨1, _⟩ => show win2_0.index t (1 : Fin 2) * 64 + 1 * q.val = q.val; omega
      · refine congrArg K (funext fun a => Fin.ext ?_)
        match a with
        | ⟨0, _⟩ => show win2_1.index t (0 : Fin 2) * 64 + 1 * q.val = q.val; omega
        | ⟨1, _⟩ => show win2_1.index t (1 : Fin 2) * 64 + 1 * (j 1).val = ((((cfg2.win 3).blk t).view.emb j) 1).val; omega
    · refine congrArg B (funext fun a => Fin.ext ?_)
      match a with
      | ⟨0, _⟩ => show win2_2.index t (0 : Fin 2) * 1 + 1 * 0 = 0; omega
      | ⟨1, _⟩ => show win2_2.index t (1 : Fin 2) * 64 + 1 * (j 1).val = ((((cfg2.win 3).blk t).view.emb j) 1).val; omega
  exact key (V c main_v53) (V c main_arg3) (V c main_v54)

/-- An index of the output array is in point `t`'s block iff each coordinate is in the block's range on its axis. -/
theorem mem_blk2 (t : Fin cfg2.N) (i : S100000x64.Idx) :
    i ∈ ((cfg2.win 3).blk t).view.set ↔ ∀ a : Fin 2, win2_3.index t a * S10000x64.size a ≤ (i a).val
      ∧ (i a).val < win2_3.index t a * S10000x64.size a + S10000x64.size a := by
  show i ∈ ((View.whole main_v55).slice (win2_3.rect t)).set ↔ _
  rw [View.set_slice_whole, Rect.mem_set_unit]
  exact Iff.rfl

/-- Every index of the output array is in the block of the point its row divided by 10000 names. -/
theorem cover2 (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have ht : (i 0).val / 10000 < grid2.N := by rw [N_2]; omega
  refine ⟨⟨(i 0).val / 10000, ht⟩, flush2_3 _, ?_⟩
  rw [mem_blk2]
  obtain ⟨-, -, -, -, -, -, e30, e31⟩ := idx_facts2 ⟨(i 0).val / 10000, ht⟩
  have ev : (⟨(i 0).val / 10000, ht⟩ : Fin cfg2.N).val = (i 0).val / 10000 := rfl
  intro a
  match a with
  | ⟨0, _⟩ =>
    show win2_3.index ⟨(i 0).val / 10000, ht⟩ (0 : Fin 2) * 10000 ≤ (i 0).val
      ∧ (i 0).val < win2_3.index ⟨(i 0).val / 10000, ht⟩ (0 : Fin 2) * 10000 + 10000
    rw [e30, ev]; omega
  | ⟨1, _⟩ =>
    show win2_3.index ⟨(i 0).val / 10000, ht⟩ (1 : Fin 2) * 64 ≤ (i 1).val
      ∧ (i 1).val < win2_3.index ⟨(i 0).val / 10000, ht⟩ (1 : Fin 2) * 64 + 64
    rw [e31]; omega

/-- The output array after the run: the features times the weights plus the bias. -/
theorem final2 (c : Dev nD) :
    (dat2 (F := Ideal) V c).arrAt 3 cfg2.N = denseRows (V c main_v53) (V c main_arg3) (V c main_v54) :=
  (dat2 (F := Ideal) V c).arrAt_eq_of_cover 3 _ (fun t _ => flushed2_eq V c t) (cover2)

end Data

end Cert.KernelIdeal.Hand

end
-- ==== Proof.KIValueLaws.lean ====
/-
  The three laws that join the kernel's pallas_calls to the reference's operations, at the ideal instance. A hop: every
  gathered row times its edge's weight is the reference's weights (a column, then spread along the 64 lanes) times the
  gathered rows — multiplication of extended reals commutes. The dense layer: the sum over q of h(i, q) · k(q, l) plus
  the bias row at l is the reference's dot_general at (i, l) plus the bias broadcast to (i, l).
-/
import proofs.«131668_j65876208386529_1_alg».proof.Proof.KIScaleFinal0
import proofs.«131668_j65876208386529_1_alg».proof.Proof.KIScaleFinal1
import proofs.«131668_j65876208386529_1_alg».proof.Proof.KIDenseFinal
import proofs.«131668_j65876208386529_1_alg».proof.Proof.Gen.ReferenceIdeal.Read
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.StableHlo
open Idealize.ShloMosaic.ValueIdx

/-! ## The three laws that join the two sides -/

section Laws
variable (x0 : (⟨S100000x64, .f32⟩ : BufTy).Contents (Elt Ideal)) (x1 : (⟨S2x1000000, .i32⟩ : BufTy).Contents (Elt Ideal))
  (x2 : (⟨S1000000, .f32⟩ : BufTy).Contents (Elt Ideal)) (x3 : (⟨S64x64, .f32⟩ : BufTy).Contents (Elt Ideal))
  (x4 : (⟨S64, .f32⟩ : BufTy).Contents (Elt Ideal))

/-- Every gathered row times its edge's weight is the weights, spread along the lanes, times the gathered rows. -/
theorem scale_eq41 : scaleRows0 (F := Ideal) (Cert.ReferenceIdeal.Read.val_main_v39 (F := Ideal) x0 x1) (Cert.ReferenceIdeal.Read.val_main_v31 (F := Ideal) x1 x2)
    = Cert.ReferenceIdeal.Read.val_main_v41 (F := Ideal) x0 x1 x2 := by
  funext i
  rw [Cert.ReferenceIdeal.Read.val_main_v41_apply, Cert.ReferenceIdeal.Read.val_main_v40_apply, Cert.ReferenceIdeal.Read.val_main_v32_apply]
  unfold scaleRows0
  have e : (ix1 (⟨(i 0).val, (i 0).isLt⟩ : Fin 1100000) : S1100000.Idx) = Cert.ReferenceIdeal.Read.idx_main_v32 (Cert.ReferenceIdeal.Read.idx_main_v40 i) :=
    funext fun a => Fin.ext (by match a with | ⟨0, _⟩ => rfl)
  rw [e]
  exact mul_comm _ _

theorem scale_eq54 : scaleRows1 (F := Ideal) (Cert.ReferenceIdeal.Read.val_main_v52 (F := Ideal) x0 x1 x2) (Cert.ReferenceIdeal.Read.val_main_v31 (F := Ideal) x1 x2)
    = Cert.ReferenceIdeal.Read.val_main_v54 (F := Ideal) x0 x1 x2 := by
  funext i
  rw [Cert.ReferenceIdeal.Read.val_main_v54_apply, Cert.ReferenceIdeal.Read.val_main_v53_apply, Cert.ReferenceIdeal.Read.val_main_v45_apply]
  unfold scaleRows1
  have e : (ix1 (⟨(i 0).val, (i 0).isLt⟩ : Fin 1100000) : S1100000.Idx) = Cert.ReferenceIdeal.Read.idx_main_v45 (Cert.ReferenceIdeal.Read.idx_main_v53 i) :=
    funext fun a => Fin.ext (by match a with | ⟨0, _⟩ => rfl)
  rw [e]
  exact mul_comm _ _

/-- The dense layer: the same sum over the 64 contracted entries, plus the bias at the lane. -/
theorem dense_eq61 : denseRows (Cert.ReferenceIdeal.Read.val_main_v57 (F := Ideal) x0 x1 x2) x3 (shapeCast S1x64 x4 shapeCasts_S64_S1x64)
    = Cert.ReferenceIdeal.Read.val_main_v61 (F := Ideal) x0 x1 x2 x3 x4 := by
  funext i
  rw [Cert.ReferenceIdeal.Read.val_main_v61_apply, Cert.ReferenceIdeal.Read.val_main_v58_apply, Cert.ReferenceIdeal.Read.val_main_v60_apply, Cert.ReferenceIdeal.Read.val_main_v59_apply]
  unfold denseRows
  have el : ∀ q : Fin 64, (ix2 (⟨(i 0).val, (i 0).isLt⟩ : Fin 100000) q : S100000x64.Idx) = Cert.ReferenceIdeal.Read.lidx_main_v58 i q :=
    fun q => funext fun a => Fin.ext (by match a with | ⟨0, _⟩ => rfl | ⟨1, _⟩ => rfl)
  have er : ∀ q : Fin 64, (ix2 q (⟨(i 1).val, (i 1).isLt⟩ : Fin 64) : S64x64.Idx) = Cert.ReferenceIdeal.Read.ridx_main_v58 i q :=
    fun q => funext fun a => Fin.ext (by match a with | ⟨0, _⟩ => rfl | ⟨1, _⟩ => rfl)
  have eb : shapeCast S1x64 x4 shapeCasts_S64_S1x64 (ix2 (0 : Fin 1) (⟨(i 1).val, (i 1).isLt⟩ : Fin 64))
      = x4 (Cert.ReferenceIdeal.Read.idx_main_v59 (Cert.ReferenceIdeal.Read.idx_main_v60 i)) :=
    shapeCast_apply x4 _ _ _ (by
      rw [Shape.rowMajor_val_one, Shape.rowMajor_val_two]; show (i 1).val = 0 * 64 + (i 1).val; omega)
  simp only [el, er, eb]
  rfl

end Laws

end Cert.KernelIdeal.Hand

end
-- ==== Proof.KIValue.lean ====
/-
  The buffers the kernel's run passes through hold the reference's stages, in order: after the first stretch the edge
  lists with self loops, the weights with the loops' ones, the degrees' sign and inverse roots; then the inverse root
  degrees, the normalized weights and the first gathered rows; the first hop's products (the edge-scaling pallas_call's
  output array); the scatter-add and second gather; the second hop's products; the second scatter-add and the bias row;
  and the dense layer's output array is the reference's result.
-/
import proofs.«131668_j65876208386529_1_alg».proof.Proof.KIFrame
import proofs.«131668_j65876208386529_1_alg».proof.Proof.KIValueStretch
import proofs.«131668_j65876208386529_1_alg».proof.Proof.KIValueLaws
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.StableHlo
open Idealize.ShloMosaic.ValueIdx

variable (m : (ℓ : Loc nD τ sig) → Buf (Elt Ideal) ℓ) (c : Dev nD)

/-! ### After the first host stretch -/
theorem W1_v5 : W1 m c (Proc.devRef .tc main_v5) = Cert.ReferenceIdeal.Read.val_main_v5 (F := Ideal) (m ((c.tc : Thread nD τ).loc main_arg1)) := by
  show StableHlo.after hostOps0 (W0 m c) (Proc.devRef .tc main_v5) = _
  after_results; rfl
theorem W1_v6 : W1 m c (Proc.devRef .tc main_v6) = Cert.ReferenceIdeal.Read.val_main_v6 (F := Ideal) (m ((c.tc : Thread nD τ).loc main_arg1)) := by
  show StableHlo.after hostOps0 (W0 m c) (Proc.devRef .tc main_v6) = _
  after_results; rfl
theorem W1_v8 : W1 m c (Proc.devRef .tc main_v8) = Cert.ReferenceIdeal.Read.val_main_v8 (F := Ideal) (m ((c.tc : Thread nD τ).loc main_arg2)) := by
  show StableHlo.after hostOps0 (W0 m c) (Proc.devRef .tc main_v8) = _
  after_results; rfl
theorem W1_v13 : W1 m c (Proc.devRef .tc main_v13) = Cert.ReferenceIdeal.Read.val_main_v13 (F := Ideal) (m ((c.tc : Thread nD τ).loc main_arg1)) (m ((c.tc : Thread nD τ).loc main_arg2)) := by
  show StableHlo.after hostOps0 (W0 m c) (Proc.devRef .tc main_v13) = _
  after_results; rfl
theorem W1_v14 : W1 m c (Proc.devRef .tc main_v14) = Cert.ReferenceIdeal.Read.val_main_v14 (F := Ideal) (m ((c.tc : Thread nD τ).loc main_arg1)) (m ((c.tc : Thread nD τ).loc main_arg2)) := by
  show StableHlo.after hostOps0 (W0 m c) (Proc.devRef .tc main_v14) = _
  after_results; rfl
theorem W1_cst2 : W1 m c (Proc.devRef .tc main_cst_2) = Cert.ReferenceIdeal.Read.val_main_cst_2 (F := Ideal) := by
  show StableHlo.after hostOps0 (W0 m c) (Proc.devRef .tc main_cst_2) = _
  after_results; rfl

/-! ### After the where-call and the third stretch -/
theorem W2_v15 : W2 m c (Proc.devRef .tc main_v15) = Cert.ReferenceIdeal.Read.val_main_v15 (F := Ideal) (m ((c.tc : Thread nD τ).loc main_arg1)) (m ((c.tc : Thread nD τ).loc main_arg2)) :=
  stretch01_v15 (W1 m c) _ _ (W1_v13 m c) (W1_v14 m c) (W1_cst2 m c)
theorem W2_v5 : W2 m c (Proc.devRef .tc main_v5) = Cert.ReferenceIdeal.Read.val_main_v5 (F := Ideal) (m ((c.tc : Thread nD τ).loc main_arg1)) :=
  (StableHlo.after_of_writes_sub hostOps0_1 _ hostOps0_1_writes (by decide)).trans (W1_v5 m c)
theorem W2_v6 : W2 m c (Proc.devRef .tc main_v6) = Cert.ReferenceIdeal.Read.val_main_v6 (F := Ideal) (m ((c.tc : Thread nD τ).loc main_arg1)) :=
  (StableHlo.after_of_writes_sub hostOps0_1 _ hostOps0_1_writes (by decide)).trans (W1_v6 m c)
theorem W2_v8 : W2 m c (Proc.devRef .tc main_v8) = Cert.ReferenceIdeal.Read.val_main_v8 (F := Ideal) (m ((c.tc : Thread nD τ).loc main_arg2)) :=
  (StableHlo.after_of_writes_sub hostOps0_1 _ hostOps0_1_writes (by decide)).trans (W1_v8 m c)
theorem W2_arg0 : W2 m c (Proc.devRef .tc main_arg0) = (m ((c.tc : Thread nD τ).loc main_arg0)) :=
  (StableHlo.after_of_writes_sub hostOps0_1 _ hostOps0_1_writes (by decide)).trans
    ((StableHlo.after_of_writes_sub hostOps0 _ hostOps0_writes (by decide)).trans rfl)

theorem W3_v31 : W3 m c (Proc.devRef .tc main_v31) = Cert.ReferenceIdeal.Read.val_main_v31 (F := Ideal) (m ((c.tc : Thread nD τ).loc main_arg1)) (m ((c.tc : Thread nD τ).loc main_arg2)) :=
  stretch02_v31 (W2 m c) _ _ (W2_v5 m c) (W2_v6 m c) (W2_v8 m c) (W2_v15 m c)
theorem W3_v38 : W3 m c (Proc.devRef .tc main_v38) = Cert.ReferenceIdeal.Read.val_main_v39 (F := Ideal) (m ((c.tc : Thread nD τ).loc main_arg0)) (m ((c.tc : Thread nD τ).loc main_arg1)) :=
  stretch02_v38 (W2 m c) _ _ (W2_v6 m c) (W2_arg0 m c)
theorem W3_v5 : W3 m c (Proc.devRef .tc main_v5) = Cert.ReferenceIdeal.Read.val_main_v5 (F := Ideal) (m ((c.tc : Thread nD τ).loc main_arg1)) :=
  (StableHlo.after_of_writes_sub hostOps0_2 _ hostOps0_2_writes (by decide)).trans (W2_v5 m c)
theorem W3_v6 : W3 m c (Proc.devRef .tc main_v6) = Cert.ReferenceIdeal.Read.val_main_v6 (F := Ideal) (m ((c.tc : Thread nD τ).loc main_arg1)) :=
  (StableHlo.after_of_writes_sub hostOps0_2 _ hostOps0_2_writes (by decide)).trans (W2_v6 m c)

/-! ### The first hop -/
theorem W4_v39 : W4 m c (Proc.devRef .tc main_v39) = Cert.ReferenceIdeal.Read.val_main_v41 (F := Ideal) (m ((c.tc : Thread nD τ).loc main_arg0)) (m ((c.tc : Thread nD τ).loc main_arg1)) (m ((c.tc : Thread nD τ).loc main_arg2)) := by
  refine (W4_arr m c 2).trans ((final0 (V3 m) c).trans ?_)
  rw [show V3 m c main_v38 = W3 m c (Proc.devRef .tc main_v38) from rfl, show V3 m c main_v31 = W3 m c (Proc.devRef .tc main_v31) from rfl,
    W3_v38, W3_v31]
  exact scale_eq41 _ _ _
theorem W4_v5 : W4 m c (Proc.devRef .tc main_v5) = Cert.ReferenceIdeal.Read.val_main_v5 (F := Ideal) (m ((c.tc : Thread nD τ).loc main_arg1)) :=
  (W4_of_ne m c main_v5 (by decide)).trans (W3_v5 m c)
theorem W4_v6 : W4 m c (Proc.devRef .tc main_v6) = Cert.ReferenceIdeal.Read.val_main_v6 (F := Ideal) (m ((c.tc : Thread nD τ).loc main_arg1)) :=
  (W4_of_ne m c main_v6 (by decide)).trans (W3_v6 m c)
theorem W4_v31 : W4 m c (Proc.devRef .tc main_v31) = Cert.ReferenceIdeal.Read.val_main_v31 (F := Ideal) (m ((c.tc : Thread nD τ).loc main_arg1)) (m ((c.tc : Thread nD τ).loc main_arg2)) :=
  (W4_arr m c 1).trans (((dat0 (V3 m) c).arrAt_in 1 rfl _).trans ((A_eq0 (V3 m) c 1).trans (W3_v31 m c)))

theorem W5_v49 : W5 m c (Proc.devRef .tc main_v49) = Cert.ReferenceIdeal.Read.val_main_v52 (F := Ideal) (m ((c.tc : Thread nD τ).loc main_arg0)) (m ((c.tc : Thread nD τ).loc main_arg1)) (m ((c.tc : Thread nD τ).loc main_arg2)) :=
  stretch1_v49 (W4 m c) _ _ _ (W4_v5 m c) (W4_v6 m c) (W4_v39 m c)
theorem W5_v5 : W5 m c (Proc.devRef .tc main_v5) = Cert.ReferenceIdeal.Read.val_main_v5 (F := Ideal) (m ((c.tc : Thread nD τ).loc main_arg1)) :=
  (StableHlo.after_of_writes_sub hostOps1 _ hostOps1_writes (by decide)).trans (W4_v5 m c)
theorem W5_v31 : W5 m c (Proc.devRef .tc main_v31) = Cert.ReferenceIdeal.Read.val_main_v31 (F := Ideal) (m ((c.tc : Thread nD τ).loc main_arg1)) (m ((c.tc : Thread nD τ).loc main_arg2)) :=
  (StableHlo.after_of_writes_sub hostOps1 _ hostOps1_writes (by decide)).trans (W4_v31 m c)

/-! ### The second hop -/
theorem W6_v50 : W6 m c (Proc.devRef .tc main_v50) = Cert.ReferenceIdeal.Read.val_main_v54 (F := Ideal) (m ((c.tc : Thread nD τ).loc main_arg0)) (m ((c.tc : Thread nD τ).loc main_arg1)) (m ((c.tc : Thread nD τ).loc main_arg2)) := by
  refine (W6_arr m c 2).trans ((final1 (V5 m) c).trans ?_)
  rw [show V5 m c main_v49 = W5 m c (Proc.devRef .tc main_v49) from rfl, show V5 m c main_v31 = W5 m c (Proc.devRef .tc main_v31) from rfl,
    W5_v49, W5_v31]
  exact scale_eq54 _ _ _
theorem W6_v5 : W6 m c (Proc.devRef .tc main_v5) = Cert.ReferenceIdeal.Read.val_main_v5 (F := Ideal) (m ((c.tc : Thread nD τ).loc main_arg1)) :=
  (W6_of_ne m c main_v5 (by decide)).trans (W5_v5 m c)
theorem W6_arg4 : W6 m c (Proc.devRef .tc main_arg4) = (m ((c.tc : Thread nD τ).loc main_arg4)) :=
  calc W6 m c (Proc.devRef .tc main_arg4)
    _ = W5 m c (Proc.devRef .tc main_arg4) := W6_of_ne m c main_arg4 (by decide)
    _ = W4 m c (Proc.devRef .tc main_arg4) := StableHlo.after_of_writes_sub hostOps1 _ hostOps1_writes (by decide)
    _ = W3 m c (Proc.devRef .tc main_arg4) := W4_of_ne m c main_arg4 (by decide)
    _ = W2 m c (Proc.devRef .tc main_arg4) := StableHlo.after_of_writes_sub hostOps0_2 _ hostOps0_2_writes (by decide)
    _ = W1 m c (Proc.devRef .tc main_arg4) := StableHlo.after_of_writes_sub hostOps0_1 _ hostOps0_1_writes (by decide)
    _ = W0 m c (Proc.devRef .tc main_arg4) := StableHlo.after_of_writes_sub hostOps0 _ hostOps0_writes (by decide)
    _ = (m ((c.tc : Thread nD τ).loc main_arg4)) := rfl
theorem W7_arg3 : W7 m c (Proc.devRef .tc main_arg3) = (m ((c.tc : Thread nD τ).loc main_arg3)) :=
  calc W7 m c (Proc.devRef .tc main_arg3)
    _ = W6 m c (Proc.devRef .tc main_arg3) := StableHlo.after_of_writes_sub hostOps2 _ hostOps2_writes (by decide)
    _ = W5 m c (Proc.devRef .tc main_arg3) := W6_of_ne m c main_arg3 (by decide)
    _ = W4 m c (Proc.devRef .tc main_arg3) := StableHlo.after_of_writes_sub hostOps1 _ hostOps1_writes (by decide)
    _ = W3 m c (Proc.devRef .tc main_arg3) := W4_of_ne m c main_arg3 (by decide)
    _ = W2 m c (Proc.devRef .tc main_arg3) := StableHlo.after_of_writes_sub hostOps0_2 _ hostOps0_2_writes (by decide)
    _ = W1 m c (Proc.devRef .tc main_arg3) := StableHlo.after_of_writes_sub hostOps0_1 _ hostOps0_1_writes (by decide)
    _ = W0 m c (Proc.devRef .tc main_arg3) := StableHlo.after_of_writes_sub hostOps0 _ hostOps0_writes (by decide)
    _ = (m ((c.tc : Thread nD τ).loc main_arg3)) := rfl

/-! ### The dense layer -/
theorem W7_v53 : W7 m c (Proc.devRef .tc main_v53) = Cert.ReferenceIdeal.Read.val_main_v57 (F := Ideal) (m ((c.tc : Thread nD τ).loc main_arg0)) (m ((c.tc : Thread nD τ).loc main_arg1)) (m ((c.tc : Thread nD τ).loc main_arg2)) :=
  stretch2_v53 (W6 m c) _ _ _ (W6_v5 m c) (W6_v50 m c)
theorem W7_v54 : W7 m c (Proc.devRef .tc main_v54) = shapeCast S1x64 (m ((c.tc : Thread nD τ).loc main_arg4)) shapeCasts_S64_S1x64 :=
  stretch2_v54 (W6 m c) _ (W6_arg4 m c)

/-- The dense layer's output array after its write-backs is the reference's result stage. -/
theorem result_eq : (dat2 (F := Ideal) (V7 m) c).arrAt 3 cfg2.N
    = Cert.ReferenceIdeal.Read.val_main_v61 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (final2 (V7 m) c).trans ?_
  rw [show V7 m c main_v53 = W7 m c (Proc.devRef .tc main_v53) from rfl, show V7 m c main_arg3 = W7 m c (Proc.devRef .tc main_arg3) from rfl,
    show V7 m c main_v54 = W7 m c (Proc.devRef .tc main_v54) from rfl, W7_v53, W7_arg3, W7_v54]
  exact dense_eq61 _ _ _ _ _

end Cert.KernelIdeal.Hand

end
-- ==== Proof.lean ====
/-
  A two-hop simplified graph convolution over 100,000 nodes with 64 features and 1,000,000 edges, against its jnp
  reference, at the ideal instance (floats are extended reals, operations exact, format changes the identity).

  Both programs add a self loop to every node, normalize the edge weights by the inverse square roots of the row and
  column degrees, propagate the features twice — h ↦ the sum over edges e into row[e] of w[e] · h[col[e]] — and apply a
  dense layer h · k + bias. The kernel computes each hop's products w[e] · h[col[e]] in a pallas_call over the 1,100,000
  edges in blocks of 16384 (the last block overhangs the arrays and only its 2272 edges inside them are transferred), and
  the dense layer in a pallas_call over the nodes in ten blocks of 10000 with the operands cast to bf16; everything else
  is the same host operations in the same order.

  The two results are equal entry by entry. A hop's product is feature times weight in the kernel and weight times
  feature in the reference: multiplication of extended reals commutes. The dense layer's entry (i, l) is, on both sides,
  the sum over q of h(i, q) · k(q, l) plus bias(l): at the ideal instance the bf16 casts are the identity and the matrix
  unit's product into a zero accumulator is that plain sum, as is the host's dot_general. No law used needs finiteness,
  so the precondition is never opened.

  The frames: every weakly fair execution of each program terminates without a fault and leaves the five argument
  arrays as launched — for the kernel's two programs from the run of @main through its eight items, each argument's
  buffer walked back through them to the launch memory; for the reference from its run as a line of host operations.
  The idealization rewrote no operation, so there is nothing to preserve beyond the program's own text.
-/
import proofs.«131668_j65876208386529_1_alg».proof.Defs
import proofs.«131668_j65876208386529_1_alg».proof.Proof.Gen.Kernel
import proofs.«131668_j65876208386529_1_alg».proof.Proof.Gen.KernelIdeal
import proofs.«131668_j65876208386529_1_alg».proof.Proof.Gen.ReferenceIdeal
import proofs.«131668_j65876208386529_1_alg».proof.Proof.Gen.ReferenceIdeal.Run
import proofs.«131668_j65876208386529_1_alg».proof.Proof.Gen.ReferenceIdeal.Read
import proofs.«131668_j65876208386529_1_alg».proof.Proof.Gen.Pre_finite_inputs
import proofs.«131668_j65876208386529_1_alg».proof.Proof.KBFrame
import proofs.«131668_j65876208386529_1_alg».proof.Proof.KIFrame
import proofs.«131668_j65876208386529_1_alg».proof.Proof.KIValue
import Idealize.ShloMosaic.Adequacy
import Idealize.ShloMosaic.Init

noncomputable section

namespace Cert.Proof

open Idealize.ShloMosaic Idealize.SL.Sem

/-- The word-level kernel runs to the end and leaves its arguments as launched. -/
theorem frame_k : Cert.frame_Kernel := fun m ρ _ => Cert.Kernel.Hand.frame (F := Bits) m ρ

/-- So does the kernel read at the ideal instance. -/
theorem frame_ki : Cert.frame_KernelIdeal := fun m ρ _ => Cert.KernelIdeal.Hand.frame (F := Ideal) m ρ

/-- The reference is a line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs run to the end with equal results: the kernel's result array
    is the dense layer's output after its write-backs, which is the reference's result stage of the same arguments. -/
theorem algebraic : Cert.algebraic_KernelIdeal_ReferenceIdeal := by
  intro m ρ m' ρ' _ hagree
  refine ⟨fun c => (Cert.KernelIdeal.Hand.dat2 (F := Ideal) (Cert.KernelIdeal.Hand.V7 m) c).arrAt 3 Cert.KernelIdeal.cfg2.N,
    Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v61_eq, (hagree c).1, (hagree c).2.1, (hagree c).2.2.1, (hagree c).2.2.2.1, (hagree c).2.2.2.2]
  exact (Cert.KernelIdeal.Hand.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
